-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_bandwidth" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x256x4096 : Shape := ⟨3, ![4, 256, 4096]⟩
abbrev S_ : Shape := ⟨0, ![]⟩
abbrev S4x256 : Shape := ⟨2, ![4, 256]⟩
abbrev S4x256x1x1 : Shape := ⟨4, ![4, 256, 1, 1]⟩
abbrev S4x64x64 : Shape := ⟨3, ![4, 64, 64]⟩
abbrev S4x1x64x64 : Shape := ⟨4, ![4, 1, 64, 64]⟩
abbrev S4x4096x256 : Shape := ⟨3, ![4, 4096, 256]⟩
abbrev S4x4096x1 : Shape := ⟨3, ![4, 4096, 1]⟩
abbrev S1x1024x256 : Shape := ⟨3, ![1, 1024, 256]⟩
abbrev S1x256x1024 : Shape := ⟨3, ![1, 256, 1024]⟩
abbrev S1x1024x1 : Shape := ⟨3, ![1, 1024, 1]⟩
abbrev S1024x1 : Shape := ⟨2, ![1024, 1]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S4x4096 : Shape := ⟨2, ![4, 4096]⟩
abbrev S4 : Shape := ⟨1, ![4]⟩

abbrev nBuf : Space → Nat
  | .hbm => 56
  | .vmem => 16
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S_, .f32⟩
  | .hbm, ⟨4, _⟩ => ⟨S4x256, .f32⟩
  | .hbm, ⟨5, _⟩ => ⟨S_, .f32⟩
  | .hbm, ⟨6, _⟩ => ⟨S4x256, .f32⟩
  | .hbm, ⟨7, _⟩ => ⟨S4x256, .f32⟩
  | .hbm, ⟨8, _⟩ => ⟨S4x256x1x1, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S4x256x64x64, .f32⟩
  | .hbm, ⟨14, _⟩ => ⟨S_, .f32⟩
  | .hbm, ⟨15, _⟩ => ⟨S4x64x64, .f32⟩
  | .hbm, ⟨16, _⟩ => ⟨S4x1x64x64, .f32⟩
  | .hbm, ⟨17, _⟩ => ⟨S4x1x64x64, .f32⟩
  | .hbm, ⟨18, _⟩ => ⟨S_, .f32⟩
  | .hbm, ⟨19, _⟩ => ⟨S4x1x64x64, .f32⟩
  | .hbm, ⟨20, _⟩ => ⟨S4x1x64x64, .f32⟩
  | .hbm, ⟨21, _⟩ => ⟨S4x256x64x64, .f32⟩
  | .hbm, ⟨22, _⟩ => ⟨S4x256x64x64, .f32⟩
  | .hbm, ⟨23, _⟩ => ⟨S4x256x4096, .f32⟩
  | .hbm, ⟨24, _⟩ => ⟨S4x256x64x64, .f32⟩
  | .hbm, ⟨25, _⟩ => ⟨S_, .f32⟩
  | .hbm, ⟨26, _⟩ => ⟨S4x64x64, .f32⟩
  | .hbm, ⟨27, _⟩ => ⟨S4x1x64x64, .f32⟩
  | .hbm, ⟨28, _⟩ => ⟨S4x1x64x64, .f32⟩
  | .hbm, ⟨29, _⟩ => ⟨S_, .f32⟩
  | .hbm, ⟨30, _⟩ => ⟨S4x1x64x64, .f32⟩
  | .hbm, ⟨31, _⟩ => ⟨S4x1x64x64, .f32⟩
  | .hbm, ⟨32, _⟩ => ⟨S4x256x64x64, .f32⟩
  | .hbm, ⟨33, _⟩ => ⟨S4x256x64x64, .f32⟩
  | .hbm, ⟨34, _⟩ => ⟨S4x256x4096, .f32⟩
  | .hbm, ⟨35, _⟩ => ⟨S4x4096x256, .f32⟩
  | .hbm, ⟨36, _⟩ => ⟨S4x4096x256, .bf16⟩
  | .hbm, ⟨37, _⟩ => ⟨S4x256x4096, .bf16⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096, .f32⟩
  | .hbm, ⟨49, _⟩ => ⟨S_, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x1, .f32⟩
  | .local _ .vmem, ⟨5, _⟩ => ⟨S1x1024x1, .f32⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x256x64x64_S4x256x4096 : S4x256x64x64.ShapeCasts S4x256x4096
  reducesTo_S4x256x4096_S4x256_d2 : S4x256x4096.ReducesTo [2] S4x256
  h_S_ : 0 < S_.numel
  bcast_S_S4x256 : S_.BroadcastsInDim S4x256 (![] : Fin 0 → Fin S4x256.rank)
  bcast_S4x256_S4x256x1x1_0_1 : S4x256.BroadcastsInDim S4x256x1x1 (![0, 1] : Fin 2 → Fin S4x256x1x1.rank)
  bcast_S4x256x1x1_S4x256x64x64_0_1_2_3 : S4x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  transposes_S4x256x4096_S4x4096x256_0_2_1 : S4x256x4096.Transposes [0, 2, 1] S4x4096x256
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x1024_S1024 : S1024x1024.Reduces [1] S1024
  shapeCasts_S1024_S1024x1 : S1024.ShapeCasts S1024x1
  bcast_S_S4x4096x1 : S_.BroadcastsInDim S4x4096x1 (![] : Fin 0 → Fin S4x4096x1.rank)
  broadcasts_S1024x1_S1024x1024 : S1024x1.Broadcasts S1024x1024
  shapeCasts_S4x4096x1_S4x4096 : S4x4096x1.ShapeCasts S4x4096
  reducesTo_S4x4096_S4_d1 : S4x4096.ReducesTo [1] S4
  bcast_S_S4 : S_.BroadcastsInDim S4 (![] : Fin 0 → Fin S4.rank)
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .bf16 = 32 ∨ (Rect.block (s := S4x4096x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x256x4096.size a
  hwx0_1 : ∀ i : grid0.Coords, EltTy.bits .bf16 = 32 ∨ (Rect.block (s := S4x256x4096) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x256x4096.size a
  hwx1_1 : ∀ i : grid1.Coords, EltTy.bits .bf16 = 32 ∨ (Rect.block (s := S4x256x4096) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x4096x1.size a
  hwx1_2 : ∀ i : grid1.Coords, EltTy.bits .f32 = 32 ∨ (Rect.block (s := S4x4096x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S4x4096x1.size a
  hwx1_3 : ∀ i : grid1.Coords, EltTy.bits .f32 = 32 ∨ (Rect.block (s := S4x4096x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S4x4096x1.size a
  hwx1_4 : ∀ i : grid1.Coords, EltTy.bits .f32 = 32 ∨ (Rect.block (s := S4x4096x1) S1x1024x1.size (cc1_transform_4 i) (hinb1_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v28) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35_0) S1x1024x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35_1) S1x1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x256x64x64 : Shape := ⟨4, ![4, 256, 64, 64]⟩
abbrev S4x256x4096 : Shape := ⟨3, ![4, 256, 4096]⟩
abbrev S_ : Shape := ⟨0, ![]⟩
abbrev S4x256 : Shape := ⟨2, ![4, 256]⟩
abbrev S4x256x1x1 : Shape := ⟨4, ![4, 256, 1, 1]⟩
abbrev S4x64x64 : Shape := ⟨3, ![4, 64, 64]⟩
abbrev S4x1x64x64 : Shape := ⟨4, ![4, 1, 64, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 68
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S_, .f32⟩
  | .hbm, ⟨4, _⟩ => ⟨S4x256, .f32⟩
  | .hbm, ⟨5, _⟩ => ⟨S_, .f32⟩
  | .hbm, ⟨6, _⟩ => ⟨S4x256, .f32⟩
  | .hbm, ⟨7, _⟩ => ⟨S4x256, .f32⟩
  | .hbm, ⟨8, _⟩ => ⟨S4x256x1x1, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S4x256x64x64, .f32⟩
  | .hbm, ⟨14, _⟩ => ⟨S_, .f32⟩
  | .hbm, ⟨15, _⟩ => ⟨S4x64x64, .f32⟩
  | .hbm, ⟨16, _⟩ => ⟨S4x1x64x64, .f32⟩
  | .hbm, ⟨17, _⟩ => ⟨S4x1x64x64, .f32⟩
  | .hbm, ⟨18, _⟩ => ⟨S_, .f32⟩
  | .hbm, ⟨19, _⟩ => ⟨S4x1x64x64, .f32⟩
  | .hbm, ⟨20, _⟩ => ⟨S4x1x64x64, .f32⟩
  | .hbm, ⟨21, _⟩ => ⟨S4x256x64x64, .f32⟩
  | .hbm, ⟨22, _⟩ => ⟨S4x256x64x64, .f32⟩
  | .hbm, ⟨23, _⟩ => ⟨S4x256x4096, .f32⟩
  | .hbm, ⟨24, _⟩ => ⟨S4x256x64x64, .f32⟩
  | .hbm, ⟨25, _⟩ => ⟨S_, .f32⟩
  | .hbm, ⟨26, _⟩ => ⟨S4x64x64, .f32⟩
  | .hbm, ⟨27, _⟩ => ⟨S4x1x64x64, .f32⟩
  | .hbm, ⟨28, _⟩ => ⟨S4x1x64x64, .f32⟩
  | .hbm, ⟨29, _⟩ => ⟨S_, .f32⟩
  | .hbm, ⟨30, _⟩ => ⟨S4x1x64x64, .f32⟩
  | .hbm, ⟨31, _⟩ => ⟨S4x1x64x64, .f32⟩
  | .hbm, ⟨32, _⟩ => ⟨S4x256x64x64, .f32⟩
  | .hbm, ⟨33, _⟩ => ⟨S4x256x64x64, .f32⟩
  | .hbm, ⟨34, _⟩ => ⟨S4x256x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  reducesTo_S4x256x4096_S4x256_d2 : S4x256x4096.ReducesTo [2] S4x256
  h_S_ : 0 < S_.numel
  bcast_S_S4x256 : S_.BroadcastsInDim S4x256 (![] : Fin 0 → Fin S4x256.rank)
  bcast_S4x256_S4x256x1x1_0_1 : S4x256.BroadcastsInDim S4x256x1x1 (![0, 1] : Fin 2 → Fin S4x256x1x1.rank)
  bcast_S4x256x1x1_S4x256x64x64_0_1_2_3 : S4x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.RowSpec.lean ====
/-
  One row of the contextual similarity, in the two arrangements that are compared.

  A row has 4096 scores s_m (cosine similarities of one query position against every key position).
  Its distances are d_m = 1 - s_m, its weights w_m = exp((1 - d_m / (d_min + c)) / h) with
  d_min = min_m d_m, c = 0.001 and h the bandwidth, and its value is max_m (w_m / Σ_m w_m).

  The tiled arrangement walks the 4096 columns in four tiles of 1024: it first takes the running maximum
  of the scores (so d_min = 1 - max_m s_m), then, with the divisor fixed, the running sum and the running
  maximum of the weights, the weights formed by a product with 1/h, and divides once at the end.
  The plain arrangement takes the minimum of the distances, forms the weights by a quotient by h, divides
  every weight by the sum and takes the maximum of the quotients.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-! ## The float words both programs carry, as extended reals -/

/-- 1.0 -/
abbrev one : EReal := Ideal.ofBits .f32 0x3F800000#32
/-- 0.0 -/
abbrev zero : EReal := Ideal.ofBits .f32 0x00000000#32
/-- -∞, the start of a running maximum -/
abbrev negInf : EReal := Ideal.ofBits .f32 0xFF800000#32
/-- +∞, the start of a running minimum -/
abbrev posInf : EReal := Ideal.ofBits .f32 0x7F800000#32
/-- the margin c added to the smallest distance (the f32 word of 0.001) -/
abbrev margin : EReal := Ideal.ofBits .f32 0x3A83126F#32
/-- the bandwidth h the plain arrangement divides by (the f32 word of 0.1, the rational 13421773/134217728) -/
abbrev bandwidth : EReal := Ideal.ofBits .f32 0x3DCCCCCD#32
/-- its reciprocal, the factor the tiled arrangement multiplies by -/
abbrev invBandwidth : EReal := ((134217728 / 13421773 : ℝ) : EReal)

/-! ## Four tiles of 1024 columns -/

/-- Column `k` of tile `j` (tiles counted modulo four, so that the function is total). -/
def col (j : ℕ) (k : Fin 1024) : Fin 4096 := ⟨(j % 4) * 1024 + k.val, by have := k.isLt; omega⟩

/-- A running maximum over tiles 0..n from a start value. -/
def accMax (init : EReal) (T : ℕ → EReal) : ℕ → EReal
  | 0 => max init (T 0)
  | n + 1 => max (accMax init T n) (T (n + 1))

/-- A running sum over tiles 0..n from a start value. -/
def accSum (init : EReal) (T : ℕ → EReal) : ℕ → EReal
  | 0 => init + T 0
  | n + 1 => accSum init T n + T (n + 1)

/-- The maximum of `f` over tile `j`, from -∞. -/
def tileMax (f : Fin 4096 → EReal) (j : ℕ) : EReal :=
  (Finset.univ : Finset (Fin 1024)).fold max negInf (fun k => f (col j k))

/-- The sum of `f` over tile `j`. -/
def tileSum (f : Fin 4096 → EReal) (j : ℕ) : EReal := ∑ k : Fin 1024, f (col j k)

/-! ## The tiled arrangement of a row -/

/-- The largest score, tile by tile. -/
def smaxT (s : Fin 4096 → EReal) : EReal := accMax negInf (tileMax s) 3

/-- The divisor: the smallest distance plus the margin, the smallest distance taken as 1 - (largest score). -/
def denomT (s : Fin 4096 → EReal) : EReal := (one - smaxT s) + margin

/-- A weight for a given divisor, by the product with the reciprocal of the bandwidth. -/
def weightT (s : Fin 4096 → EReal) (d : EReal) (m : Fin 4096) : EReal :=
  Ideal.exp ((one - Ideal.div (one - s m) d) * invBandwidth)

/-- The running sum of the weights, tile by tile from 0. -/
def sumT (s : Fin 4096 → EReal) (d : EReal) : EReal := accSum zero (tileSum (weightT s d)) 3

/-- The running maximum of the weights, tile by tile from 0. -/
def maxT (s : Fin 4096 → EReal) (d : EReal) : EReal := accMax zero (tileMax (weightT s d)) 3

/-- The row's value: one quotient at the end. -/
def rowT (s : Fin 4096 → EReal) : EReal := Ideal.div (maxT s (denomT s)) (sumT s (denomT s))

/-! ## The plain arrangement of a row -/

/-- The smallest distance, from +∞. -/
def dminP (s : Fin 4096 → EReal) : EReal :=
  (Finset.univ : Finset (Fin 4096)).fold min posInf (fun m => one - s m)

/-- A weight for a given divisor, by the quotient by the bandwidth. -/
def weightP (s : Fin 4096 → EReal) (d : EReal) (m : Fin 4096) : EReal :=
  Ideal.exp (Ideal.div (one - Ideal.div (one - s m) d) bandwidth)

/-- The sum of the weights, from 0. -/
def sumP (s : Fin 4096 → EReal) (d : EReal) : EReal := zero + ∑ m : Fin 4096, weightP s d m

/-- The row's value: the largest of the normalised weights, from -∞. -/
def rowP (s : Fin 4096 → EReal) : EReal :=
  (Finset.univ : Finset (Fin 4096)).fold max negInf
    (fun m => Ideal.div (weightP s (dminP s + margin) m) (sumP s (dminP s + margin)))

/-! ## The scores -/

/-- The score of query position `n` against key position `m` in batch `b`: the inner product over the 256 channels of
    the two normalised feature arrays [4, 256, 4096]. -/
def score (X Y : (⟨3, ![4, 256, 4096]⟩ : Shape).Idx → EReal) (b : Fin 4) (n m : Fin 4096) : EReal :=
  ∑ c : Fin 256, X (ix3 b c n) * Y (ix3 b c m)

end Cert.RowSpec

end
-- ==== Proof.RowLaws.lean ====
/-
  The two arrangements of a row (RowSpec) have one value, on every row of extended reals.

  The laws used: x ↦ 1 - x reverses the order, so the smallest distance is 1 - (largest score); a quotient by the
  real h is the product with 1/h at the infinities too; a maximum or a sum over 4096 columns is the running one over
  four tiles of 1024; exp is nowhere negative, so a running maximum of weights from 0 is their maximum; and a quotient
  by a fixed s ≥ 0 is monotone in the numerator (for s = 0 as well: 0 goes to -∞ and a positive numerator to +∞), so
  the maximum of the quotients is the quotient of the maximum.  None of them needs a finite row.
-/
import proofs.«143377_j14963666059427_1_alg».proof.Proof.RowSpec

noncomputable section

namespace Cert.RowLaws

open Idealize.ShloMosaic Cert.RowSpec

/-! ## The words as extended reals -/

/-- The word of 1.0 is the extended real 1. -/
theorem one_eq : one = 1 := by
  simp [Ideal.ofBits, Ideal.ieee, -EReal.coe_mul]; norm_num

/-- The word of 0.0 is the extended real 0. -/
theorem zero_eq : zero = 0 := by
  simp [Ideal.ofBits, Ideal.ieee]

/-- The word of -∞ is the least extended real. -/
theorem negInf_eq : negInf = ⊥ := by
  simp [Ideal.ofBits, Ideal.ieee]

/-- The word of +∞ is the greatest extended real. -/
theorem posInf_eq : posInf = ⊤ := by
  simp [Ideal.ofBits, Ideal.ieee]

/-- The bandwidth word is the rational 13421773 / 2^27. -/
theorem bandwidth_eq : bandwidth = ((13421773 / 134217728 : ℝ) : EReal) := by
  simp [Ideal.ofBits, Ideal.ieee, -EReal.coe_mul]; norm_num

/-! ## The quotient and the exponential -/

/-- A quotient by the bandwidth is the product with its reciprocal, for every extended real. -/
theorem div_bandwidth (x : EReal) : Ideal.div x bandwidth = x * invBandwidth := by
  rw [bandwidth_eq, Ideal.div_coe (by norm_num)]
  congr 2
  norm_num

/-- The exponential is nowhere negative. -/
theorem exp_nonneg (x : EReal) : 0 ≤ Ideal.exp x := by
  induction x using EReal.rec with
  | bot => simp
  | coe r => rw [Ideal.exp_coe]; exact_mod_cast (Real.exp_pos r).le
  | top => simp

/-- A quotient by a fixed non-negative divisor is monotone in the numerator: by 0 every numerator ≤ 0 goes to -∞ and
    every positive one to +∞; by S ≠ 0 it is the product with S⁻¹ ≥ 0. -/
theorem div_mono_left {S : EReal} (hS : 0 ≤ S) : Monotone fun x => Ideal.div x S := by
  intro x y hxy
  by_cases h0 : S = 0
  · simp only [Ideal.div, if_pos h0]
    by_cases hx : 0 < x
    · rw [if_pos hx, if_pos (lt_of_lt_of_le hx hxy)]
    · rw [if_neg hx]; exact bot_le
  · simp only [Ideal.div, if_neg h0]
    exact mul_le_mul_of_nonneg_right hxy (EReal.inv_nonneg_of_nonneg hS)

/-! ## Maxima and minima from the infinities -/

/-- Subtraction from 1 reverses the order, so it takes a maximum from -∞ to the minimum from +∞. -/
theorem one_sub_fold_max {ι : Type} (t : Finset ι) (f : ι → EReal) :
    (1 : EReal) - t.fold max ⊥ f = t.fold min ⊤ (fun i => 1 - f i) := by
  have hanti : Antitone fun x : EReal => (1 : EReal) - x := fun a b hab => EReal.sub_le_sub le_rfl hab
  have h := Finset.fold_hom (op := max) (op' := min) (s := t) (b := (⊥ : EReal)) (f := f)
    (m := fun x : EReal => (1 : EReal) - x) (fun x y => hanti.map_max)
  have h0 : (1 : EReal) - ⊥ = ⊤ := by
    rw [← EReal.coe_one]; exact EReal.coe_sub_bot 1
  rw [← h, h0]

/-- A monotone map goes through a maximum from -∞ over a non-empty index set: the maximum is attained at some
    index, so nothing is asked of the map at -∞. -/
theorem map_fold_max {ι : Type} (t : Finset ι) (ht : t.Nonempty) (f : ι → EReal) (g : EReal → EReal)
    (hg : Monotone g) : g (t.fold max ⊥ f) = t.fold max ⊥ (fun i => g (f i)) := by
  apply le_antisymm
  · have h : ∃ i ∈ t, t.fold max ⊥ f ≤ f i := by
      rcases (Finset.le_fold_max _).1 (le_refl (t.fold max ⊥ f)) with h | h
      · obtain ⟨i, hi⟩ := ht
        exact ⟨i, hi, h.trans bot_le⟩
      · exact h
    obtain ⟨i, hi, hle⟩ := h
    exact (hg hle).trans ((Finset.le_fold_max _).2 (Or.inr ⟨i, hi, le_rfl⟩))
  · exact (Finset.fold_max_le _).2 ⟨bot_le, fun i hi => hg ((Finset.le_fold_max _).2 (Or.inr ⟨i, hi, le_rfl⟩))⟩

/-! ## Four tiles of 1024 columns make the 4096 columns -/

/-- Every column lies in one of the four tiles. -/
theorem forall_col {P : Fin 4096 → Prop} :
    (∀ m, P m) ↔ (∀ k, P (col 0 k)) ∧ (∀ k, P (col 1 k)) ∧ (∀ k, P (col 2 k)) ∧ (∀ k, P (col 3 k)) := by
  constructor
  · intro h
    exact ⟨fun k => h _, fun k => h _, fun k => h _, fun k => h _⟩
  · rintro ⟨h0, h1, h2, h3⟩ m
    have hm := m.isLt
    by_cases c1 : m.val < 1024
    · have e : m = col 0 ⟨m.val, c1⟩ := Fin.ext (by simp [col])
      rw [e]; exact h0 _
    by_cases c2 : m.val < 2048
    · have e : m = col 1 ⟨m.val - 1024, by omega⟩ := Fin.ext (by simp only [col]; omega)
      rw [e]; exact h1 _
    by_cases c3 : m.val < 3072
    · have e : m = col 2 ⟨m.val - 2048, by omega⟩ := Fin.ext (by simp only [col]; omega)
      rw [e]; exact h2 _
    · have e : m = col 3 ⟨m.val - 3072, by omega⟩ := Fin.ext (by simp only [col]; omega)
      rw [e]; exact h3 _

/-- A running maximum over the four tiles is the maximum over all 4096 columns: both sides have the same upper
    bounds. -/
theorem accMax_tiles (init : EReal) (f : Fin 4096 → EReal) :
    accMax init (tileMax f) 3 = max init (Finset.univ.fold max ⊥ f) := by
  apply eq_of_forall_ge_iff
  intro c
  simp only [accMax, tileMax, negInf_eq, max_le_iff, Finset.fold_max_le, bot_le, true_and, Finset.mem_univ,
    forall_true_left]
  rw [forall_col (P := fun m => f m ≤ c)]
  tauto

/-- A sum over all 4096 columns is the sum of the four tile sums: (j, k) ↦ 1024 j + k is a bijection from
    4 × 1024 onto the columns. -/
theorem sum_tiles (f : Fin 4096 → EReal) :
    ∑ m : Fin 4096, f m = tileSum f 0 + tileSum f 1 + tileSum f 2 + tileSum f 3 := by
  have e : ∑ m : Fin 4096, f m = ∑ p : Fin 4 × Fin 1024, f (col p.1.val p.2) := by
    symm
    refine Fintype.sum_equiv (finProdFinEquiv : Fin 4 × Fin 1024 ≃ Fin 4096) _ _ ?_
    rintro ⟨j, k⟩
    congr 1
    apply Fin.ext
    have := j.isLt
    simp only [col, finProdFinEquiv_apply_val]
    omega
  rw [e, Fintype.sum_prod_type, Fin.sum_univ_four]
  rfl

/-- A running sum over the four tiles is the start value plus the sum over all 4096 columns. -/
theorem accSum_tiles (init : EReal) (f : Fin 4096 → EReal) :
    accSum init (tileSum f) 3 = init + ∑ m : Fin 4096, f m := by
  rw [sum_tiles]
  simp only [accSum, add_assoc]

/-! ## The row -/

/-- The smallest distance of the plain arrangement is 1 - (the largest score of the tiled one). -/
theorem dminP_eq (s : Fin 4096 → EReal) : dminP s = one - smaxT s := by
  rw [smaxT, accMax_tiles, negInf_eq, max_eq_right bot_le, one_eq, one_sub_fold_max, dminP, posInf_eq, one_eq]

/-- So the two arrangements divide the distances by the same number. -/
theorem denom_eq (s : Fin 4096 → EReal) : dminP s + margin = denomT s := by
  rw [denomT, dminP_eq]

/-- For one divisor the two arrangements form the same weights. -/
theorem weight_eq (s : Fin 4096 → EReal) (d : EReal) (m : Fin 4096) : weightP s d m = weightT s d m := by
  rw [weightT, weightP, div_bandwidth]

/-- The tiled and the plain arrangement of a row agree. -/
theorem row_eq (s : Fin 4096 → EReal) : rowT s = rowP s := by
  have hw : weightP s (dminP s + margin) = weightT s (denomT s) := by
    funext m
    rw [denom_eq, weight_eq]
  have hw0 : ∀ m, 0 ≤ weightT s (denomT s) m := fun m => exp_nonneg _
  have hS : (0 : EReal) ≤ 0 + ∑ m, weightT s (denomT s) m := by
    rw [zero_add]
    exact Finset.sum_nonneg fun m _ => hw0 m
  have hmax : max (0 : EReal) (Finset.univ.fold max ⊥ (weightT s (denomT s)))
      = Finset.univ.fold max ⊥ (weightT s (denomT s)) :=
    max_eq_right ((hw0 0).trans ((Finset.le_fold_max _).2 (Or.inr ⟨0, Finset.mem_univ _, le_rfl⟩)))
  rw [rowT, rowP, maxT, sumT, sumP, hw, accMax_tiles, accSum_tiles, zero_eq, hmax, negInf_eq]
  exact map_fold_max Finset.univ Finset.univ_nonempty _ (fun x => Ideal.div x _) (div_mono_left hS)

end Cert.RowLaws

end
-- ==== Proof.RefRows.lean ====
/-
  The reference's similarity stage, read row by row.

  From the two normalised feature arrays X, Y of shape [4, 256, 4096] the reference forms the scores
  s(b, n, m) = Σ_c X(b, c, n) · Y(b, c, m), the distances 1 - s, their minimum over m, the divisor (minimum plus
  margin), the weights exp((1 - d / divisor) / h), their sum over m, the normalised weights, and the maximum over m
  of the normalised weights. This module reads each of those arrays at explicit coordinates (b, n, m) or (b, n) and
  shows that the last one, at (b, n), is the plain arrangement's value of the row m ↦ s(b, n, m).

  The two feature arrays are left as they are: nothing before the contraction is opened.
-/
import proofs.«143377_j14963666059427_1_alg».proof.Proof.Gen.ReferenceIdeal.Read
import proofs.«143377_j14963666059427_1_alg».proof.Proof.RowSpec
import Idealize.ShloMosaic.Lib.ValueIdx
import Idealize.ShloMosaic.PureOps.Reduce

noncomputable section

namespace Cert.RefRows

open Cert.ReferenceIdeal Cert.ReferenceIdeal.Gen Cert.ReferenceIdeal.Read Idealize.ShloMosaic Idealize.ShloMosaic.ValueIdx
open Cert.RowSpec

section LastAxis

variable {α : Type} {n0 n1 n2 : Nat}

/-- In a rank-3 array, the reduced index (b, n) with coordinate `k` put back on the last axis is (b, n, k). -/
theorem lift_last (h : (⟨3, ![n0, n1, n2]⟩ : Shape).Reduces [2] (⟨2, ![n0, n1]⟩ : Shape)) (b : Fin n0) (n : Fin n1)
    (k : Fin ((⟨3, ![n0, n1, n2]⟩ : Shape).size 2)) :
    h.lift (ix2 b n) k = ix3 b n (⟨k.val, k.isLt⟩ : Fin n2) := by
  funext c; apply Fin.ext
  fin_cases c <;> rfl

/-- A reduce of a rank-3 array over its last axis with a commutative and associative body is, at (b, n), the fold of
    the body from the initial value over the last coordinate. -/
theorem reduce_last (f : α → α → α) [Std.Commutative f] [Std.Associative f]
    (x : (⟨3, ![n0, n1, n2]⟩ : Shape).Idx → α) (init : (⟨0, ![]⟩ : Shape).Idx → α)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape))
    (hu : 0 < (⟨0, ![]⟩ : Shape).numel) (b : Fin n0) (n : Fin n1) :
    Host.reduce f x init h' hu (ix2 b n)
      = (Finset.univ : Finset (Fin n2)).fold f (init (Shape.Idx.first hu)) (fun m => x (ix3 b n m)) := by
  rw [Host.reduce_eq_fold_single f x _ h' h hu]
  have hf : (x ∘ h.lift (ix2 b n)) = fun m : Fin n2 => x (ix3 b n m) :=
    funext fun k => congrArg x (lift_last h b n k)
  exact congrArg (fun g => Finset.fold f (init (Shape.Idx.first hu)) g (Finset.univ : Finset (Fin n2))) hf

end LastAxis

/-- The scores of batch `b`, query position `n`, as a row over the key positions. -/
abbrev srow (x0 x1 : (⟨S4x256x64x64, .f32⟩ : BufTy).Contents (Elt Ideal)) (b : Fin 4) (n : Fin 4096) : Fin 4096 → EReal :=
  score (val_main_v17 (F := Ideal) x0 x1) (val_main_v26 (F := Ideal) x1) b n

/-- The contraction array at (b, n, m) is the score of query position n against key position m. -/
theorem v27_at (x0 x1 : (⟨S4x256x64x64, .f32⟩ : BufTy).Contents (Elt Ideal)) (b : Fin 4) (n m : Fin 4096) :
    val_main_v27 (F := Ideal) x0 x1 (ix3 b n m) = srow x0 x1 b n m := by
  rw [val_main_v27_apply]
  show _ = ∑ c : Fin 256, _
  refine Finset.sum_congr rfl fun c _ => ?_
  have hl : lidx_main_v27 (ix3 b n m) c = ix3 b c n :=
    funext fun a => Fin.ext (by match a with | ⟨0, _⟩ => rfl | ⟨1, _⟩ => rfl | ⟨2, _⟩ => rfl)
  have hr : ridx_main_v27 (ix3 b n m) c = ix3 b c m :=
    funext fun a => Fin.ext (by match a with | ⟨0, _⟩ => rfl | ⟨1, _⟩ => rfl | ⟨2, _⟩ => rfl)
  rw [hl, hr]

/-- The distance array at (b, n, m) is one minus the score. -/
theorem v29_at (x0 x1 : (⟨S4x256x64x64, .f32⟩ : BufTy).Contents (Elt Ideal)) (b : Fin 4) (n m : Fin 4096) :
    val_main_v29 (F := Ideal) x0 x1 (ix3 b n m) = one - srow x0 x1 b n m := by
  rw [val_main_v29_apply, val_main_v28_apply, val_main_cst_5_apply, v27_at]
  rfl

/-- Dropping the last axis of a [4, 4096, 4096] array leaves a [4, 4096] array. -/
theorem reducesLast : S4x4096x4096.Reduces [2] S4x4096 := by decide

/-- The smallest-distance array at (b, n) is the minimum over the key positions of one minus the score, from +∞. -/
theorem v30_at (x0 x1 : (⟨S4x256x64x64, .f32⟩ : BufTy).Contents (Elt Ideal)) (b : Fin 4) (n : Fin 4096) :
    val_main_v30 (F := Ideal) x0 x1 (ix2 b n) = dminP (srow x0 x1 b n) := by
  unfold val_main_v30
  refine (reduce_last FloatOps.minimumf _ _ reducesTo_S4x4096x4096_S4x4096_d2 reducesLast h_S_ b n).trans ?_
  have hf : (fun m : Fin 4096 => val_main_v29 (F := Ideal) x0 x1 (ix3 b n m)) = fun m : Fin 4096 => one - srow x0 x1 b n m :=
    funext fun m => v29_at x0 x1 b n m
  exact congrArg (fun g => Finset.fold min posInf g (Finset.univ : Finset (Fin 4096))) hf

/-- The divisor column at (b, n, 0) is the smallest distance plus the margin. -/
theorem v33_at (x0 x1 : (⟨S4x256x64x64, .f32⟩ : BufTy).Contents (Elt Ideal)) (b : Fin 4) (n : Fin 4096) :
    val_main_v33 (F := Ideal) x0 x1 (ix3 b n (0 : Fin 1)) = dminP (srow x0 x1 b n) + margin := by
  rw [val_main_v33_apply, val_main_v31_apply, val_main_v32_apply, val_main_cst_7_apply]
  have hi : idx_main_v31 (ix3 b n (0 : Fin 1)) = ix2 b n :=
    funext fun a => Fin.ext (by match a with | ⟨0, _⟩ => rfl | ⟨1, _⟩ => rfl)
  rw [hi, v30_at]
  rfl

/-- The divisor array at (b, n, m) is the smallest distance plus the margin, whatever the key position. -/
theorem v34_at (x0 x1 : (⟨S4x256x64x64, .f32⟩ : BufTy).Contents (Elt Ideal)) (b : Fin 4) (n m : Fin 4096) :
    val_main_v34 (F := Ideal) x0 x1 (ix3 b n m) = dminP (srow x0 x1 b n) + margin := by
  rw [val_main_v34_apply]
  have hi : idx_main_v34 (ix3 b n m) = ix3 b n (0 : Fin 1) :=
    funext fun a => Fin.ext (by match a with | ⟨0, _⟩ => rfl | ⟨1, _⟩ => rfl | ⟨2, _⟩ => rfl)
  rw [hi, v33_at]

/-- The relative-distance array at (b, n, m) is the distance divided by the divisor. -/
theorem v35_at (x0 x1 : (⟨S4x256x64x64, .f32⟩ : BufTy).Contents (Elt Ideal)) (b : Fin 4) (n m : Fin 4096) :
    val_main_v35 (F := Ideal) x0 x1 (ix3 b n m)
      = Ideal.div (one - srow x0 x1 b n m) (dminP (srow x0 x1 b n) + margin) := by
  rw [val_main_v35_apply, v29_at, v34_at]
  rfl

/-- The exponent's numerator at (b, n, m) is one minus the relative distance. -/
theorem v37_at (x0 x1 : (⟨S4x256x64x64, .f32⟩ : BufTy).Contents (Elt Ideal)) (b : Fin 4) (n m : Fin 4096) :
    val_main_v37 (F := Ideal) x0 x1 (ix3 b n m)
      = one - Ideal.div (one - srow x0 x1 b n m) (dminP (srow x0 x1 b n) + margin) := by
  rw [val_main_v37_apply, val_main_v36_apply, val_main_cst_8_apply, v35_at]
  rfl

/-- The exponent at (b, n, m) is that numerator divided by the bandwidth. -/
theorem v39_at (x0 x1 : (⟨S4x256x64x64, .f32⟩ : BufTy).Contents (Elt Ideal)) (b : Fin 4) (n m : Fin 4096) :
    val_main_v39 (F := Ideal) x0 x1 (ix3 b n m)
      = Ideal.div (one - Ideal.div (one - srow x0 x1 b n m) (dminP (srow x0 x1 b n) + margin)) bandwidth := by
  rw [val_main_v39_apply, val_main_v38_apply, val_main_cst_9_apply, v37_at]
  rfl

/-- The weight array at (b, n, m) is the plain arrangement's weight of key position m for the row's divisor. -/
theorem v40_at (x0 x1 : (⟨S4x256x64x64, .f32⟩ : BufTy).Contents (Elt Ideal)) (b : Fin 4) (n m : Fin 4096) :
    val_main_v40 (F := Ideal) x0 x1 (ix3 b n m)
      = weightP (srow x0 x1 b n) (dminP (srow x0 x1 b n) + margin) m := by
  rw [val_main_v40_apply, v39_at]
  rfl

/-- The weight-sum array at (b, n) is the sum over the key positions of the weights, from 0. -/
theorem v41_at (x0 x1 : (⟨S4x256x64x64, .f32⟩ : BufTy).Contents (Elt Ideal)) (b : Fin 4) (n : Fin 4096) :
    val_main_v41 (F := Ideal) x0 x1 (ix2 b n) = sumP (srow x0 x1 b n) (dminP (srow x0 x1 b n) + margin) := by
  rw [val_main_v41_apply, val_main_cst_10_apply]
  show _ = zero + ∑ m : Fin 4096, _
  refine congrArg (_ + ·) (Finset.sum_congr rfl fun m _ => ?_)
  have hi : idx_main_v41 (ix2 b n) m = ix3 b n m :=
    funext fun a => Fin.ext (by match a with | ⟨0, _⟩ => rfl | ⟨1, _⟩ => rfl | ⟨2, _⟩ => rfl)
  rw [hi, v40_at]

/-- The weight-sum column at (b, n, 0) is the row's sum of weights. -/
theorem v42_at (x0 x1 : (⟨S4x256x64x64, .f32⟩ : BufTy).Contents (Elt Ideal)) (b : Fin 4) (n : Fin 4096) :
    val_main_v42 (F := Ideal) x0 x1 (ix3 b n (0 : Fin 1)) = sumP (srow x0 x1 b n) (dminP (srow x0 x1 b n) + margin) := by
  rw [val_main_v42_apply]
  have hi : idx_main_v42 (ix3 b n (0 : Fin 1)) = ix2 b n :=
    funext fun a => Fin.ext (by match a with | ⟨0, _⟩ => rfl | ⟨1, _⟩ => rfl)
  rw [hi, v41_at]

/-- The weight-sum array at (b, n, m) is the row's sum of weights, whatever the key position. -/
theorem v43_at (x0 x1 : (⟨S4x256x64x64, .f32⟩ : BufTy).Contents (Elt Ideal)) (b : Fin 4) (n m : Fin 4096) :
    val_main_v43 (F := Ideal) x0 x1 (ix3 b n m) = sumP (srow x0 x1 b n) (dminP (srow x0 x1 b n) + margin) := by
  rw [val_main_v43_apply]
  have hi : idx_main_v43 (ix3 b n m) = ix3 b n (0 : Fin 1) :=
    funext fun a => Fin.ext (by match a with | ⟨0, _⟩ => rfl | ⟨1, _⟩ => rfl | ⟨2, _⟩ => rfl)
  rw [hi, v42_at]

/-- The normalised-weight array at (b, n, m) is the weight divided by the row's sum of weights. -/
theorem v44_at (x0 x1 : (⟨S4x256x64x64, .f32⟩ : BufTy).Contents (Elt Ideal)) (b : Fin 4) (n m : Fin 4096) :
    val_main_v44 (F := Ideal) x0 x1 (ix3 b n m)
      = Ideal.div (weightP (srow x0 x1 b n) (dminP (srow x0 x1 b n) + margin) m)
          (sumP (srow x0 x1 b n) (dminP (srow x0 x1 b n) + margin)) := by
  rw [val_main_v44_apply, v40_at, v43_at]
  rfl

/-- The row-maximum array at (b, n) is the plain arrangement's value of the row of scores of query position n in
    batch b: the largest normalised weight, from -∞. -/
theorem rows (x0 x1 : (⟨S4x256x64x64, .f32⟩ : BufTy).Contents (Elt Ideal)) (b : Fin 4) (n : Fin 4096) :
    val_main_v45 (F := Ideal) x0 x1 (ix2 b n)
      = rowP (score (val_main_v17 (F := Ideal) x0 x1) (val_main_v26 (F := Ideal) x1) b n) := by
  unfold val_main_v45
  refine (reduce_last FloatOps.maximumf _ _ reducesTo_S4x4096x4096_S4x4096_d2 reducesLast h_S_ b n).trans ?_
  have hf : (fun m : Fin 4096 => val_main_v44 (F := Ideal) x0 x1 (ix3 b n m))
      = fun m : Fin 4096 => Ideal.div (weightP (srow x0 x1 b n) (dminP (srow x0 x1 b n) + margin) m)
          (sumP (srow x0 x1 b n) (dminP (srow x0 x1 b n) + margin)) :=
    funext fun m => v44_at x0 x1 b n m
  exact congrArg (fun g => Finset.fold max negInf g (Finset.univ : Finset (Fin 4096))) hf

end Cert.RefRows

end
-- ==== Proof.KernelRun.lean ====
/-
  The idealized kernel's run with its result kept: every weakly fair execution of @main ends with the result array at
  the contents the last stretch of host operations leaves (the fold of the buffer contents through @main's five
  segments: host operations, the first region, host operations, the second region, host operations), and with the
  two argument arrays as launched.
-/
import proofs.«143377_j14963666059427_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, the final state read at every unscoped buffer against the last boundary's
    contents: the result array is what the last host stretch leaves, the arguments are the launch contents. -/
theorem run : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«143377_j14963666059427_1_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibLeadAxis.lean ====
/-
  Layout steps around a leading axis, read at an index, and a sum along the leading axis.

  A block `[1, A, B]` viewed as `[A, B]` reads `(0, a, b)` at `(a, b)`, and a value `[A, B]` stored as a block
  `[1, A, B]` reads `(a, b)` at `(0, a, b)`. A value `[A, C]` recast as `[A, 1, C]` reads `(a, c)` at `(a, 0, c)`, and
  `[A, 1, C]` broadcast along its middle axis to `[A, R, C]` reads `(a, 0, c)` at every `(a, r, c)`. Over the extended
  reals the sum of an array `[E, R, C]` along its leading axis, from the zero word, is at `(r, c)` the plain sum over
  `e` of the entries `(e, r, c)`. All extents are arbitrary.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibLeadAxis

open Idealize.ShloMosaic Idealize.ShloMosaic.ValueIdx

/-- A block `[1, A, B]` viewed `[A, B]` reads `(0, a, b)` at `(a, b)`. -/
theorem cast_drop_apply {A B : Nat} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- A value `[A, B]` stored as a block `[1, A, B]` reads `(a, b)` at `(0, a, b)`. -/
theorem cast_add_apply {A B : Nat} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-- `[A, C]` recast as `[A, 1, C]` reads `(a, c)` at `(a, 0, c)`. -/
theorem cast_mid_apply {A C : Nat} {α : Type} (v : (⟨2, ![A, C]⟩ : Shape).Idx → α)
    (h : (⟨2, ![A, C]⟩ : Shape).ShapeCasts ⟨3, ![A, 1, C]⟩) (a : Fin A) (c : Fin C) :
    shapeCast ⟨3, ![A, 1, C]⟩ v h (ix3 a (0 : Fin 1) c) = v (ix2 a c) := by
  refine shapeCast_apply v h _ _ ?_
  rw [Shape.rowMajor_val_three, Shape.rowMajor_val_two]
  show a.val * C + c.val = (a.val * 1 + 0) * C + c.val
  rw [Nat.mul_one, Nat.add_zero]

/-- `[A, 1, C]` broadcast along the middle axis to `[A, R, C]` reads `(a, 0, c)` at every `(a, r, c)`. -/
theorem broadcast_mid_apply {A R C : Nat} {α : Type} (v : (⟨3, ![A, 1, C]⟩ : Shape).Idx → α)
    (h : (⟨3, ![A, 1, C]⟩ : Shape).Broadcasts ⟨3, ![A, R, C]⟩) (a : Fin A) (r : Fin R) (c : Fin C) :
    broadcastTo ⟨3, ![A, R, C]⟩ v h (ix3 a r c) = v (ix3 a (0 : Fin 1) c) := by
  refine broadcastTo_apply v h _ _ fun k => ?_
  match k with
  | ⟨0, _⟩ =>
    show a.val = if A = 1 then 0 else a.val
    split
    · have := a.isLt; omega
    · rfl
  | ⟨1, _⟩ =>
    show 0 = if (1 : Nat) = 1 then 0 else r.val
    rw [if_pos rfl]
  | ⟨2, _⟩ =>
    show c.val = if C = 1 then 0 else c.val
    split
    · have := c.isLt; omega
    · rfl

/-- The reduced index `(r, c)` with coordinate `e` put back on the leading axis is `(e, r, c)`. -/
theorem lift_lead {E R C : Nat} (h : (⟨3, ![E, R, C]⟩ : Shape).Reduces [0] (⟨2, ![R, C]⟩ : Shape)) (r : Fin R) (c : Fin C)
    (e : Fin ((⟨3, ![E, R, C]⟩ : Shape).size 0)) : h.lift (ix2 r c) e = ix3 (⟨e.val, e.isLt⟩ : Fin E) r c := by
  funext k; apply Fin.ext
  fin_cases k <;> rfl

/-- A sum along the leading axis of `[E, R, C]`, from the zero word, at `(r, c)`. -/
theorem sum_lead_apply {E R C : Nat} (src : FVec Ideal ⟨3, ![E, R, C]⟩ .f32)
    (h : (⟨3, ![E, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) src 0x00000000#32 h hφ hacc (ix2 r c) = ∑ e : Fin E, src (ix3 e r c) := by
  refine (Ideal.multiReduction_add_single src _ h hφ hacc (ix2 r c)).trans ?_
  exact Finset.sum_congr rfl fun e _ => congrArg src (lift_lead h r c e)

end Cert.LibLeadAxis

end
-- ==== Proof.TilePayloads.lean ====
/-
  What the two kernel bodies compute on one tile, entry by entry, over the extended reals.

  A tile pairs a block of 1024 query rows x0 [1, 1024, 256] with a block of 1024 key columns x1 [1, 256, 1024];
  its scores are the inner products over the 256 channels.  The first kernel keeps, per row, the running maximum
  of the scores; the second, given the row's divisor, keeps the running sum and the running maximum of the weights
  exp((1 - (1 - score) / divisor) * (1 / h)).
-/
import proofs.«143377_j14963666059427_1_alg».proof.Proof.Gen.KernelIdeal.Skeleton
import proofs.«143377_j14963666059427_1_alg».proof.Proof.RowSpec
import proofs.«143377_j14963666059427_1_alg».proof.Proof.LibDotForms
import proofs.«143377_j14963666059427_1_alg».proof.Proof.LibRowReduce
import proofs.«143377_j14963666059427_1_alg».proof.Proof.LibColBroadcast
import proofs.«143377_j14963666059427_1_alg».proof.Proof.LibLeadAxis
import Idealize.ShloMosaic.PureOps.IdealRules
import Idealize.ShloMosaic.Lib.ValueIdx

noncomputable section

namespace Cert.KernelIdeal.TilePayloads

open Cert.KernelIdeal Cert.KernelIdeal.Gen Idealize.ShloMosaic Idealize.ShloMosaic.ValueIdx Cert.RowSpec
open Cert.LibRowReduce (rowMax)

/-- The score of row `r` of the query block against column `k` of the key block. -/
def scoreBlk (x0 : Vec Ideal S1x1024x256 .bf16) (x1 : Vec Ideal S1x256x1024 .bf16) (r k : Fin 1024) : EReal :=
  ∑ c : Fin 256, x0 (ix3 (0 : Fin 1) r c) * x1 (ix3 (0 : Fin 1) c k)

/-- The weight of row `r`, column `k` for the row's divisor `d`. -/
def weightBlk (x0 : Vec Ideal S1x1024x256 .bf16) (x1 : Vec Ideal S1x256x1024 .bf16) (d : EReal) (r k : Fin 1024) : EReal :=
  Ideal.exp ((one - Ideal.div (one - scoreBlk x0 x1 r k) d) * invBandwidth)

/-- The named reciprocal of the bandwidth denotes 134217728/13421773. -/
theorem inv_bandwidth_val :
    Named.named (F := Ideal) Cert.KernelIdeal.κ "inv_bandwidth" (φ := .f32) 0x41200000#32 = invBandwidth :=
  IdealRules.named_const.ideal_named_scalar _ _ _ _ rfl

/-- The tile's matrix product at (r, k) is the score. -/
theorem matmul_blk (x0 : Vec Ideal S1x1024x256 .bf16) (x1 : Vec Ideal S1x256x1024 .bf16) (r k : Fin 1024) :
    matmul (F := Ideal) dot_S1024x256_S256x1024_S1024x1024_1_0_0_1_n_n none
      (shapeCast S1024x256 x0 shapeCasts_S1x1024x256_S1024x256 : FVec Ideal S1024x256 .bf16)
      (shapeCast S256x1024 x1 shapeCasts_S1x256x1024_S256x1024 : FVec Ideal S256x1024 .bf16)
      (constant S1024x1024 .f32 0x00000000#32) (ix2 r k) = scoreBlk x0 x1 r k := by
  refine (Cert.LibDotForms.matmul_plain_prec (M := 1024) (K := 256) (N := 1024) none _ _ r k).trans ?_
  unfold scoreBlk
  refine Finset.sum_congr rfl fun c _ => ?_
  rw [Cert.LibLeadAxis.cast_drop_apply, Cert.LibLeadAxis.cast_drop_apply]

/-- The first kernel's reset stores -∞ in every row. -/
theorem pay0_1_apply (r : Fin 1024) : k0_pay1 (F := Ideal) (ix3 (0 : Fin 1) r (0 : Fin 1)) = negInf := by
  unfold k0_pay1
  exact Cert.LibLeadAxis.cast_add_apply (A := 1024) (B := 1) _ _ r 0

/-- The first kernel's store: the row's carried value against the tile's largest score. -/
theorem pay0_2_apply (x0 : Vec Ideal S1x1024x256 .bf16) (x1 : Vec Ideal S1x256x1024 .bf16) (xo : Vec Ideal S1x1024x1 .f32)
    (r : Fin 1024) :
    k0_pay2 (F := Ideal) x0 x1 xo (ix3 (0 : Fin 1) r (0 : Fin 1))
      = max (xo (ix3 (0 : Fin 1) r (0 : Fin 1))) (rowMax fun k : Fin 1024 => scoreBlk x0 x1 r k) := by
  unfold k0_pay2
  refine (Cert.LibLeadAxis.cast_add_apply (A := 1024) (B := 1) _ _ r 0).trans ?_
  refine (maximumf_apply _ _ _).trans ?_
  refine congrArg₂ max ?_ ?_
  · exact Cert.LibLeadAxis.cast_drop_apply (A := 1024) (B := 1) _ _ r 0
  · refine (Cert.LibRowReduce.shapeCast_col_apply (R := 1024) _ _ r).trans ?_
    refine (Cert.LibRowReduce.multiReduction_max_row (R := 1024) (C := 1024) _ _ _ _ r).trans ?_
    exact congrArg rowMax (funext fun k => matmul_blk x0 x1 r k)

/-- The second kernel's weights on the tile, for the divisor block `dn`. -/
theorem pay1_4_apply (x0 : Vec Ideal S1x1024x256 .bf16) (x1 : Vec Ideal S1x256x1024 .bf16) (dn : Vec Ideal S1x1024x1 .f32)
    (r k : Fin 1024) :
    k1_pay4 (F := Ideal) x0 x1 dn (ix2 r k) = weightBlk x0 x1 (dn (ix3 (0 : Fin 1) r (0 : Fin 1))) r k := by
  unfold k1_pay4 weightBlk
  show Ideal.exp ((one - Ideal.div (one - _) _) * _) = _
  rw [matmul_blk, inv_bandwidth_val, Cert.LibColBroadcast.broadcastTo_a1_ab_apply, Cert.LibLeadAxis.cast_drop_apply]
  rfl

/-- The second kernel's resets store 0 in every row. -/
theorem pay1_2_apply (r : Fin 1024) : k1_pay2 (F := Ideal) (ix3 (0 : Fin 1) r (0 : Fin 1)) = zero := by
  unfold k1_pay2
  exact Cert.LibLeadAxis.cast_add_apply (A := 1024) (B := 1) _ _ r 0
theorem pay1_3_apply (r : Fin 1024) : k1_pay3 (F := Ideal) (ix3 (0 : Fin 1) r (0 : Fin 1)) = zero := by
  unfold k1_pay3
  exact Cert.LibLeadAxis.cast_add_apply (A := 1024) (B := 1) _ _ r 0

/-- The second kernel's sum store: the row's carried sum plus the tile's weights. -/
theorem pay1_5_apply (x0 : Vec Ideal S1x1024x256 .bf16) (x1 : Vec Ideal S1x256x1024 .bf16) (dn xs : Vec Ideal S1x1024x1 .f32)
    (r : Fin 1024) :
    k1_pay5 (F := Ideal) x0 x1 dn xs (ix3 (0 : Fin 1) r (0 : Fin 1))
      = xs (ix3 (0 : Fin 1) r (0 : Fin 1)) + ∑ k : Fin 1024, weightBlk x0 x1 (dn (ix3 (0 : Fin 1) r (0 : Fin 1))) r k := by
  unfold k1_pay5
  refine (Cert.LibLeadAxis.cast_add_apply (A := 1024) (B := 1) _ _ r 0).trans ?_
  refine (addf_apply _ _ _).trans ?_
  refine congrArg₂ (· + ·) ?_ ?_
  · exact Cert.LibLeadAxis.cast_drop_apply (A := 1024) (B := 1) _ _ r 0
  · refine (Cert.LibRowReduce.shapeCast_col_apply (R := 1024) _ _ r).trans ?_
    refine (Cert.LibRowReduce.multiReduction_add_row (R := 1024) (C := 1024) _ _ _ _ r).trans ?_
    exact Finset.sum_congr rfl fun k _ => pay1_4_apply x0 x1 dn r k

/-- The second kernel's maximum store: the row's carried maximum against the tile's largest weight. -/
theorem pay1_1_apply (w : FVec Ideal S1024x1024 .f32) (xm : FVec Ideal S1024x1 .f32) (r : Fin 1024) :
    k1_pay1 (F := Ideal) w xm (ix3 (0 : Fin 1) r (0 : Fin 1))
      = max (xm (ix2 r (0 : Fin 1))) (rowMax fun k : Fin 1024 => w (ix2 r k)) := by
  unfold k1_pay1
  refine (Cert.LibLeadAxis.cast_add_apply (A := 1024) (B := 1) _ _ r 0).trans ?_
  refine (maximumf_apply _ _ _).trans ?_
  refine congrArg₂ max rfl ?_
  refine (Cert.LibRowReduce.shapeCast_col_apply (R := 1024) _ _ r).trans ?_
  exact Cert.LibRowReduce.multiReduction_max_row (R := 1024) (C := 1024) _ _ _ _ r

/-- The carried maximum as the second kernel reads it back. -/
theorem pay1_6_apply (xm : Vec Ideal S1x1024x1 .f32) (r : Fin 1024) :
    k1_pay6 (F := Ideal) xm (ix2 r (0 : Fin 1)) = xm (ix3 (0 : Fin 1) r (0 : Fin 1)) := by
  unfold k1_pay6
  exact Cert.LibLeadAxis.cast_drop_apply (A := 1024) (B := 1) _ _ r 0

end Cert.KernelIdeal.TilePayloads

end
-- ==== Proof.KernelSpec.lean ====
/-
  The idealized kernel's side of the specification: the scores as the kernel's two operand arrays give them
  (queries [4, 4096, 256], keys [4, 256, 4096]), which batch and row a grid point's block row belongs to, and what
  the running row maximum holds after a point.
-/
import proofs.«143377_j14963666059427_1_alg».proof.Proof.RowSpec

noncomputable section

namespace Cert.KernelSpec

open Idealize.ShloMosaic Idealize.ShloMosaic.ValueIdx Cert.RowSpec

/-- The score of query position `n` against key position `m` in batch `b`, from the query array laid out
    [batch, position, channel] and the key array laid out [batch, channel, position]. -/
def scoreK (A : (⟨3, ![4, 4096, 256]⟩ : Shape).Idx → EReal) (B : (⟨3, ![4, 256, 4096]⟩ : Shape).Idx → EReal)
    (b : Fin 4) (n m : Fin 4096) : EReal :=
  ∑ c : Fin 256, A (ix3 b n c) * B (ix3 b c m)

/-- Grid point `t` of the 4 × 4 × 4 grid (batch, row tile, column tile; the column tile innermost) works on batch t / 16. -/
def batchOf (t : ℕ) : Fin 4 := ⟨t / 16 % 4, Nat.mod_lt _ (by decide)⟩

/-- Row `r` of grid point `t`'s row tile is row (t / 4 mod 4) · 1024 + r of the array. -/
def rowOf (t : ℕ) (r : Fin 1024) : Fin 4096 := ⟨t / 4 % 4 * 1024 + r.val, by have := r.isLt; omega⟩

/-- A running maximum or sum after its first tile is the start value combined with tile 0. -/
theorem accMax_zero (init : EReal) (T : ℕ → EReal) {j : ℕ} (h : j = 0) : accMax init T j = max init (T 0) := by subst h; rfl
theorem accSum_zero (init : EReal) (T : ℕ → EReal) {j : ℕ} (h : j = 0) : accSum init T j = init + T 0 := by subst h; rfl
/-- … and after a later tile it is the one before combined with that tile. -/
theorem accMax_pos (init : EReal) (T : ℕ → EReal) {j : ℕ} (h : j ≠ 0) : accMax init T j = max (accMax init T (j - 1)) (T j) := by
  cases j with
  | zero => exact absurd rfl h
  | succ n => rfl
theorem accSum_pos (init : EReal) (T : ℕ → EReal) {j : ℕ} (h : j ≠ 0) : accSum init T j = accSum init T (j - 1) + T j := by
  cases j with
  | zero => exact absurd rfl h
  | succ n => rfl

/-- The forms the induction over grid points meets: the first tile starts the running value, a later tile extends
    the value the point before left. -/
theorem accMax_first (init : EReal) (T : ℕ → EReal) {j : ℕ} (h : j = 0) : max init (T j) = accMax init T j := by subst h; rfl
theorem accSum_first (init : EReal) (T : ℕ → EReal) {j : ℕ} (h : j = 0) : init + T j = accSum init T j := by subst h; rfl
theorem accMax_next (init : EReal) (T : ℕ → EReal) {j : ℕ} (h : j ≠ 0) (prev : EReal) (hp : prev = accMax init T (j - 1)) :
    max prev (T j) = accMax init T j := by subst hp; exact (accMax_pos init T h).symm
theorem accSum_next (init : EReal) (T : ℕ → EReal) {j : ℕ} (h : j ≠ 0) (prev : EReal) (hp : prev = accSum init T (j - 1)) :
    prev + T j = accSum init T j := by subst hp; exact (accSum_pos init T h).symm

end Cert.KernelSpec

end
-- ==== Proof.Region0Value.lean ====
/-
  The first region (the running row maximum of the scores), read as values.

  Its grid is 4 × 4 × 4 (batch, row tile, column tile); point t works on batch t / 16, rows
  (t / 4 mod 4) · 1024 + r and columns (t mod 4) · 1024 + k.  The output block of a (batch, row tile) is visited by
  four consecutive points; the first resets it to -∞, each takes the maximum with its tile's largest score, and the
  last one's contents are written back.  So the array ends, at (b, n, 0), at the running maximum over the four tiles of
  the scores of row (b, n).
-/
import proofs.«143377_j14963666059427_1_alg».proof.Proof.Gen.KernelIdeal.Frame
import proofs.«143377_j14963666059427_1_alg».proof.Proof.TilePayloads
import proofs.«143377_j14963666059427_1_alg».proof.Proof.KernelSpec
import Idealize.ShloMosaic.Lib.Pipeline.Value
import Idealize.ShloMosaic.Lib.Tactic

set_option maxRecDepth 16384

noncomputable section

namespace Cert.KernelIdeal.Region0

open Cert.KernelIdeal Cert.KernelIdeal.Gen Cert.KernelIdeal.TilePayloads Cert.RowSpec Cert.KernelSpec
open Idealize.ShloMosaic Idealize.ShloMosaic.TcCoe Idealize.SL.Sem Idealize.ShloMosaic.ValueIdx Idealize.ShloMosaic.Tactic
open Idealize.ShloMosaic.Pipeline (Dat)
open Cert.LibRowReduce (rowMax)

variable (V : (c : Dev nD) → (b : Ref sig .tc) → Buf (Elt Ideal) ((c : Thread nD τ).loc b))

theorem hz : (![0, 0, 0] : Fin 3 → Nat) = fun _ => 0 := funext fun a => by fin_cases a <;> rfl

/-! ## The two cases' values -/

/-- A later visit leaves the carried block against the tile's largest scores. -/
theorem out_B (c : Dev nD) (i : grid0.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (hc : ¬cond0_0 i) (x0 : Vec Ideal S1x1024x256 .bf16) (x1 : Vec Ideal S1x256x1024 .bf16) (xo : Vec Ideal S1x1024x1 .f32) :
    out0_B_2 (F := Ideal) c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S1x1024x256) hz,
    View.ld_unit_zero (S := S1x256x1024) hz, View.ld_unit_zero (S := S1x1024x1) hz]

/-- The first visit leaves the block of -∞ against the tile's largest scores. -/
theorem out_A (c : Dev nD) (i : grid0.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (hc : cond0_0 i) (x0 : Vec Ideal S1x1024x256 .bf16) (x1 : Vec Ideal S1x256x1024 .bf16) :
    out0_A_2 (F := Ideal) c i a3 h3 a4 h4 a5 h5 hc x0 x1 = k0_pay2 x0 x1 (k0_pay1 (F := Ideal)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1024x1) hz, View.readCov_unit_zero (S := S1x1024x1) _ hz]
  simp only [View.readAt_eq_ld, h3.read_unread, h4.read_unread, View.ld_unit_zero (S := S1x1024x256) hz,
    View.ld_unit_zero (S := S1x256x1024) hz, View.ld_unit_zero (S := S1x1024x1) hz]

/-! ## The windows' blocks -/

/-- The printed index maps over the grid: queries and the output move with (batch, row tile), keys with (batch, column tile). -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val / 4 % 4 ∧ win0_2.index t (2 : Fin 3) = 0 :=
  (by decide +kernel : ∀ t : Fin grid0.N, _)

/-- Every index of a [1, 1024, 1] block is (0, r, 0). -/
theorem eq_col (y : S1x1024x1.Idx) : y = ix3 (0 : Fin 1) (⟨(y 1).val, (y 1).isLt⟩ : Fin 1024) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- The query block at point `t`: row r, channel ch of the block is row `rowOf t r` of batch `batchOf t`. -/
theorem qblk_apply (c : Dev nD) (t : Fin cfg0.N) (r : Fin 1024) (ch : Fin 256) :
    (iblk0 V c 0 t : Vec Ideal S1x1024x256 .bf16) (ix3 (0 : Fin 1) r ch)
      = (V c main_v28 : S4x4096x256.Idx → EReal) (ix3 (batchOf t.val) (rowOf t.val r) ch) := by
  obtain ⟨e0, e1, e2, -⟩ := idx_facts t
  have hN : t.val < 64 := lt_of_lt_of_eq t.isLt (N_0 : cfg0.N = 64)
  unfold iblk0
  rw [View.read_apply]
  show V c main_v28 _ = V c main_v28 _
  refine congrArg _ ?_
  funext a; apply Fin.ext
  match a with
  | ⟨0, _⟩ => show win0_0.index t (0 : Fin 3) * 1 + 1 * 0 = t.val / 16 % 4; omega
  | ⟨1, _⟩ => show win0_0.index t (1 : Fin 3) * 1024 + 1 * r.val = t.val / 4 % 4 * 1024 + r.val; omega
  | ⟨2, _⟩ => show win0_0.index t (2 : Fin 3) * 256 + 1 * ch.val = ch.val; omega

/-- The key block at point `t`: channel ch, column k of the block is column (t mod 4) · 1024 + k of batch `batchOf t`. -/
theorem kblk_apply (c : Dev nD) (t : Fin cfg0.N) (ch : Fin 256) (k : Fin 1024) :
    (iblk0 V c 1 t : Vec Ideal S1x256x1024 .bf16) (ix3 (0 : Fin 1) ch k)
      = (V c main_v29 : S4x256x4096.Idx → EReal) (ix3 (batchOf t.val) ch (col (t.val % 4) k)) := by
  obtain ⟨-, -, -, e0, e1, e2, -⟩ := idx_facts t
  have hN : t.val < 64 := lt_of_lt_of_eq t.isLt (N_0 : cfg0.N = 64)
  unfold iblk0
  rw [View.read_apply]
  show V c main_v29 _ = V c main_v29 _
  refine congrArg _ ?_
  funext a; apply Fin.ext
  match a with
  | ⟨0, _⟩ => show win0_1.index t (0 : Fin 3) * 1 + 1 * 0 = t.val / 16 % 4; omega
  | ⟨1, _⟩ => show win0_1.index t (1 : Fin 3) * 256 + 1 * ch.val = ch.val; omega
  | ⟨2, _⟩ => show win0_1.index t (2 : Fin 3) * 1024 + 1 * k.val = t.val % 4 % 4 * 1024 + k.val; omega

/-- So the tile's largest score in row r at point `t` is the maximum over tile (t mod 4) of the row's scores. -/
theorem tile_max (c : Dev nD) (t : Fin cfg0.N) (r : Fin 1024) :
    (rowMax fun k : Fin 1024 => scoreBlk (iblk0 V c 0 t) (iblk0 V c 1 t) r k)
      = tileMax (scoreK (V c main_v28) (V c main_v29) (batchOf t.val) (rowOf t.val r)) (t.val % 4) := by
  unfold tileMax rowMax
  refine congrArg (fun f => Finset.fold max negInf f (Finset.univ : Finset (Fin 1024))) (funext fun k => ?_)
  unfold scoreBlk scoreK
  exact Finset.sum_congr rfl fun ch _ => by rw [qblk_apply V c t r ch, kblk_apply V c t ch k]

/-! ## What the output block holds after each point -/

/-- The running maximum of row r's scores after point `t`: over tiles 0 … t mod 4. -/
def smaxAfter (c : Dev nD) (t : ℕ) (r : Fin 1024) : EReal :=
  accMax negInf (tileMax (scoreK (V c main_v28) (V c main_v29) (batchOf t) (rowOf t r))) (t % 4)

/-- By induction on the point: the first visit of a block starts the running maximum, a later one extends it. -/
theorem outsAt_eq (c : Dev nD) : ∀ (n : ℕ) (h : n < cfg0.N) (r : Fin 1024),
    outsAt0 V c n h (ix3 (0 : Fin 1) r (0 : Fin 1)) = smaxAfter V c n r := by
  intro n
  induction n with
  | zero =>
    intro h r
    rw [outsAt0_A V c ⟨0, h⟩ rfl, out_A, pay0_2_apply, pay0_1_apply, tile_max V c ⟨0, h⟩ r]
    exact accMax_first negInf (tileMax (scoreK (V c main_v28) (V c main_v29) (batchOf 0) (rowOf 0 r))) (j := 0 % 4) rfl
  | succ n ih =>
    intro h r
    by_cases h0 : (n + 1) % 4 = 0
    · rw [outsAt0_A V c ⟨n + 1, h⟩ h0, out_A, pay0_2_apply, pay0_1_apply, tile_max V c ⟨n + 1, h⟩ r]
      exact accMax_first negInf (tileMax (scoreK (V c main_v28) (V c main_v29) (batchOf (n + 1)) (rowOf (n + 1) r))) h0
    · rw [outsAt0_B V c ⟨n + 1, h⟩ h0, out_B, pay0_2_apply, tile_max V c ⟨n + 1, h⟩ r]
      refine accMax_next negInf (tileMax (scoreK (V c main_v28) (V c main_v29) (batchOf (n + 1)) (rowOf (n + 1) r))) h0 _ ?_
      show outsAt0 V c n _ (ix3 (0 : Fin 1) r (0 : Fin 1)) = _
      rw [ih (Nat.lt_of_succ_lt h) r]
      unfold smaxAfter
      have eb : batchOf n = batchOf (n + 1) := Fin.ext (by show n / 16 % 4 = (n + 1) / 16 % 4; omega)
      have er : rowOf n r = rowOf (n + 1) r := Fin.ext (by show n / 4 % 4 * 1024 + r.val = (n + 1) / 4 % 4 * 1024 + r.val; omega)
      have em : n % 4 = (n + 1) % 4 - 1 := by omega
      rw [eb, er, em]

/-! ## The array after the region -/

/-- The largest score of every row, taken tile by tile: what the region leaves in its output array [4, 4096, 1]. -/
def smaxArr (A : S4x4096x256.Idx → EReal) (B : S4x256x4096.Idx → EReal) : S4x4096x1.Idx → EReal :=
  fun i => smaxT (scoreK A B ⟨(i 0).val, (i 0).isLt⟩ ⟨(i 1).val, (i 1).isLt⟩)

/-- What a block's last visit writes back is the block of `smaxArr`. -/
theorem flushed_eq (c : Dev nD) (t : Fin cfg0.N) (hf : (cfg0.win 2).flush t = true) :
    (dat0 V c).flushed 2 t = ((cfg0.win 2).blk t).view.read (Elt Ideal) (smaxArr (V c main_v28) (V c main_v29)) := by
  have h3 : t.val % 4 = 3 := (flush0_2 t).mp hf
  have hN : t.val < 64 := lt_of_lt_of_eq t.isLt (N_0 : cfg0.N = 64)
  obtain ⟨-, -, -, -, -, -, e0, e1, e2⟩ := idx_facts t
  show (cfg0.win 2).cut (grid0.coords t) ((dat0 V c).after 2 t) = _
  rw [after0_2]
  funext y
  rw [View.read_apply]
  show outsAt0 V c t.val t.isLt y = smaxArr (V c main_v28) (V c main_v29) (((cfg0.win 2).blk t).view.emb y)
  rw [eq_col y, outsAt_eq V c t.val t.isLt]
  unfold smaxAfter smaxArr smaxT
  rw [h3]
  refine congrArg (fun s => accMax negInf (tileMax s) 3) ?_
  refine congrArg₂ (scoreK (V c main_v28) (V c main_v29)) (Fin.ext ?_) (Fin.ext ?_)
  · show t.val / 16 % 4 = win0_2.index t (0 : Fin 3) * 1 + 1 * 0; omega
  · show t.val / 4 % 4 * 1024 + (y 1).val = win0_2.index t (1 : Fin 3) * 1024 + 1 * (y 1).val; omega

/-- Every entry of the output array is in the block of some last visit. -/
theorem cover (i : S4x4096x1.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1 := (i 2).isLt
  have hN : cfg0.N = 64 := N_0
  let t : Fin cfg0.N := ⟨(i 0).val * 16 + (i 1).val / 1024 * 4 + 3, by rw [hN]; omega⟩
  have ht : t.val = (i 0).val * 16 + (i 1).val / 1024 * 4 + 3 := rfl
  obtain ⟨-, -, -, -, -, -, e0, e1, e2⟩ := idx_facts t
  refine ⟨t, (flush0_2 t).mpr (by omega), ?_⟩
  show i ∈ ((View.whole main_v30).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- The output array after the region: every row's largest score, tile by tile. -/
theorem final (c : Dev nD) : (dat0 V c).arrAt 2 cfg0.N = smaxArr (V c main_v28) (V c main_v29) :=
  (dat0 V c).arrAt_eq_of_cover 2 (smaxArr (V c main_v28) (V c main_v29)) (flushed_eq V c) cover

end Cert.KernelIdeal.Region0

end
-- ==== Proof.Region1Value.lean ====
/-
  The second region (the running sum and the running maximum of the weights), read as values.

  Same grid and same blocks as the first region, plus the block of the rows' divisors.  The two output blocks of a
  (batch, row tile) are visited by four consecutive points; the first resets both to 0, each adds its tile's weights
  to the one and takes the maximum of the other with its tile's largest weight, and the last visit's contents are
  written back.  So the arrays end, at (b, n, 0), at the running sum and the running maximum over the four tiles of
  the weights of row (b, n) for that row's divisor.
-/
import proofs.«143377_j14963666059427_1_alg».proof.Proof.Gen.KernelIdeal.Frame
import proofs.«143377_j14963666059427_1_alg».proof.Proof.TilePayloads
import proofs.«143377_j14963666059427_1_alg».proof.Proof.KernelSpec
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.TilePayloads Cert.RowSpec Cert.KernelSpec
open Idealize.ShloMosaic Idealize.ShloMosaic.TcCoe Idealize.SL.Sem Idealize.ShloMosaic.ValueIdx Idealize.ShloMosaic.Tactic
open Idealize.ShloMosaic.Pipeline (Dat)
open Cert.LibRowReduce (rowMax)

variable (V : (c : Dev nD) → (b : Ref sig .tc) → Buf (Elt Ideal) ((c : Thread nD τ).loc b))

theorem hz : (![0, 0, 0] : Fin 3 → Nat) = fun _ => 0 := funext fun a => by fin_cases a <;> rfl

/-! ## The two cases' values, per output -/

/-- A later visit adds the tile's weights to the carried sums. -/
theorem out_B3 (c : Dev nD) (i : grid1.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (a6 : Memref sig .tc .vmem S1x1024x1 .f32) (h6 : a6.IsWhole) (a7 : Memref sig .tc .vmem S1x1024x1 .f32) (h7 : a7.IsWhole) (hc : ¬cond1_0 i) (x0 : Vec Ideal S1x1024x256 .bf16) (x1 : Vec Ideal S1x256x1024 .bf16) (x2 xo3 xo4 : Vec Ideal S1x1024x1 .f32) :
    out1_B_3 (F := Ideal) c i a3 h3 a4 h4 a5 h5 a6 h6 a7 h7 hc x0 x1 x2 xo3 xo4 = k1_pay5 x0 x1 x2 xo3 := by
  unfold out1_B_3
  rw [View.read_writes_eq_canon _ _ _ (cover1_B_3 c i a3 h3 a4 h4 a5 h5 a6 h6 a7 h7 hc x0 x1 x2 xo3 xo4)]
  unfold kernelRun1_B
  dsimp only
  sl_unfold_words
  rw [View.canon_unit_zero hz]
  simp only [View.readAt_eq_ld, h3.read_unread, h4.read_unread, h5.read_unread, h6.read_unread, h7.read_unread,
    View.ld_unit_zero (S := S1x1024x256) hz, View.ld_unit_zero (S := S1x256x1024) hz, View.ld_unit_zero (S := S1x1024x1) hz]

/-- A later visit takes the carried maxima against the tile's largest weights. -/
theorem out_B4 (c : Dev nD) (i : grid1.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (a6 : Memref sig .tc .vmem S1x1024x1 .f32) (h6 : a6.IsWhole) (a7 : Memref sig .tc .vmem S1x1024x1 .f32) (h7 : a7.IsWhole) (hc : ¬cond1_0 i) (x0 : Vec Ideal S1x1024x256 .bf16) (x1 : Vec Ideal S1x256x1024 .bf16) (x2 xo3 xo4 : Vec Ideal S1x1024x1 .f32) :
    out1_B_4 (F := Ideal) c i a3 h3 a4 h4 a5 h5 a6 h6 a7 h7 hc x0 x1 x2 xo3 xo4 = k1_pay1 (k1_pay4 x0 x1 x2) (k1_pay6 xo4) := by
  unfold out1_B_4
  rw [View.read_writes_eq_canon _ _ _ (cover1_B_4 c i a3 h3 a4 h4 a5 h5 a6 h6 a7 h7 hc x0 x1 x2 xo3 xo4)]
  unfold kernelRun1_B
  dsimp only
  sl_unfold_words
  rw [View.canon_unit_zero hz]
  simp only [View.readAt_eq_ld, h3.read_unread, h4.read_unread, h5.read_unread, h6.read_unread, h7.read_unread,
    View.ld_unit_zero (S := S1x1024x256) hz, View.ld_unit_zero (S := S1x256x1024) hz, View.ld_unit_zero (S := S1x1024x1) hz]

/-- The first visit adds the tile's weights to the block of zeros. -/
theorem out_A3 (c : Dev nD) (i : grid1.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (a6 : Memref sig .tc .vmem S1x1024x1 .f32) (h6 : a6.IsWhole) (a7 : Memref sig .tc .vmem S1x1024x1 .f32) (h7 : a7.IsWhole) (hc : cond1_0 i) (x0 : Vec Ideal S1x1024x256 .bf16) (x1 : Vec Ideal S1x256x1024 .bf16) (x2 : Vec Ideal S1x1024x1 .f32) :
    out1_A_3 (F := Ideal) c i a3 h3 a4 h4 a5 h5 a6 h6 a7 h7 hc x0 x1 x2 = k1_pay5 x0 x1 x2 (k1_pay2 (F := Ideal)) := by
  unfold out1_A_3
  rw [View.read_writes_eq_canon _ _ _ (cover1_A_3 c i a3 h3 a4 h4 a5 h5 a6 h6 a7 h7 hc x0 x1 x2)]
  unfold kernelRun1_A
  dsimp only
  sl_unfold_words
  rw [View.canon_cons_unit_zero (S := S1x1024x1) hz, View.readCov_unit_zero (S := S1x1024x1) _ hz]
  simp only [View.readAt_eq_ld, h3.read_unread, h4.read_unread, h5.read_unread,
    View.ld_unit_zero (S := S1x1024x256) hz, View.ld_unit_zero (S := S1x256x1024) hz, View.ld_unit_zero (S := S1x1024x1) hz]

/-- The first visit takes the block of zeros against the tile's largest weights. -/
theorem out_A4 (c : Dev nD) (i : grid1.Coords) (a3 : Memref sig .tc .vmem S1x1024x256 .bf16) (h3 : a3.IsWhole) (a4 : Memref sig .tc .vmem S1x256x1024 .bf16) (h4 : a4.IsWhole) (a5 : Memref sig .tc .vmem S1x1024x1 .f32) (h5 : a5.IsWhole) (a6 : Memref sig .tc .vmem S1x1024x1 .f32) (h6 : a6.IsWhole) (a7 : Memref sig .tc .vmem S1x1024x1 .f32) (h7 : a7.IsWhole) (hc : cond1_0 i) (x0 : Vec Ideal S1x1024x256 .bf16) (x1 : Vec Ideal S1x256x1024 .bf16) (x2 : Vec Ideal S1x1024x1 .f32) :
    out1_A_4 (F := Ideal) c i a3 h3 a4 h4 a5 h5 a6 h6 a7 h7 hc x0 x1 x2 = k1_pay1 (k1_pay4 x0 x1 x2) (k1_pay6 (k1_pay3 (F := Ideal))) := by
  unfold out1_A_4
  rw [View.read_writes_eq_canon _ _ _ (cover1_A_4 c i a3 h3 a4 h4 a5 h5 a6 h6 a7 h7 hc x0 x1 x2)]
  unfold kernelRun1_A
  dsimp only
  sl_unfold_words
  rw [View.canon_cons_unit_zero (S := S1x1024x1) hz, View.readCov_unit_zero (S := S1x1024x1) _ hz]
  simp only [View.readAt_eq_ld, h3.read_unread, h4.read_unread, h5.read_unread,
    View.ld_unit_zero (S := S1x1024x256) hz, View.ld_unit_zero (S := S1x256x1024) hz, View.ld_unit_zero (S := S1x1024x1) hz]

/-! ## The windows' blocks -/

/-- The printed index maps over the grid: queries, divisors and both outputs move with (batch, row tile), keys with
    (batch, column tile). -/
theorem idx_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = 0 ∧ win1_1.index t (2 : Fin 3) = t.val % 4
    ∧ win1_2.index t (0 : Fin 3) = t.val / 16 ∧ win1_2.index t (1 : Fin 3) = t.val / 4 % 4 ∧ win1_2.index t (2 : Fin 3) = 0
    ∧ win1_3.index t (0 : Fin 3) = t.val / 16 ∧ win1_3.index t (1 : Fin 3) = t.val / 4 % 4 ∧ win1_3.index t (2 : Fin 3) = 0
    ∧ win1_4.index t (0 : Fin 3) = t.val / 16 ∧ win1_4.index t (1 : Fin 3) = t.val / 4 % 4 ∧ win1_4.index t (2 : Fin 3) = 0 :=
  (by decide +kernel : ∀ t : Fin grid1.N, _)

/-- Every index of a [1, 1024, 1] block is (0, r, 0). -/
theorem eq_col (y : S1x1024x1.Idx) : y = ix3 (0 : Fin 1) (⟨(y 1).val, (y 1).isLt⟩ : Fin 1024) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- The query block at point `t`. -/
theorem qblk_apply (c : Dev nD) (t : Fin cfg1.N) (r : Fin 1024) (ch : Fin 256) :
    (iblk1 V c 0 t : Vec Ideal S1x1024x256 .bf16) (ix3 (0 : Fin 1) r ch)
      = (V c main_v28 : S4x4096x256.Idx → EReal) (ix3 (batchOf t.val) (rowOf t.val r) ch) := by
  obtain ⟨e0, e1, e2, -⟩ := idx_facts t
  have hN : t.val < 64 := lt_of_lt_of_eq t.isLt (N_1 : cfg1.N = 64)
  unfold iblk1
  rw [View.read_apply]
  show V c main_v28 _ = V c main_v28 _
  refine congrArg _ ?_
  funext a; apply Fin.ext
  match a with
  | ⟨0, _⟩ => show win1_0.index t (0 : Fin 3) * 1 + 1 * 0 = t.val / 16 % 4; omega
  | ⟨1, _⟩ => show win1_0.index t (1 : Fin 3) * 1024 + 1 * r.val = t.val / 4 % 4 * 1024 + r.val; omega
  | ⟨2, _⟩ => show win1_0.index t (2 : Fin 3) * 256 + 1 * ch.val = ch.val; omega

/-- The key block at point `t`. -/
theorem kblk_apply (c : Dev nD) (t : Fin cfg1.N) (ch : Fin 256) (k : Fin 1024) :
    (iblk1 V c 1 t : Vec Ideal S1x256x1024 .bf16) (ix3 (0 : Fin 1) ch k)
      = (V c main_v29 : S4x256x4096.Idx → EReal) (ix3 (batchOf t.val) ch (col (t.val % 4) k)) := by
  obtain ⟨-, -, -, e0, e1, e2, -⟩ := idx_facts t
  have hN : t.val < 64 := lt_of_lt_of_eq t.isLt (N_1 : cfg1.N = 64)
  unfold iblk1
  rw [View.read_apply]
  show V c main_v29 _ = V c main_v29 _
  refine congrArg _ ?_
  funext a; apply Fin.ext
  match a with
  | ⟨0, _⟩ => show win1_1.index t (0 : Fin 3) * 1 + 1 * 0 = t.val / 16 % 4; omega
  | ⟨1, _⟩ => show win1_1.index t (1 : Fin 3) * 256 + 1 * ch.val = ch.val; omega
  | ⟨2, _⟩ => show win1_1.index t (2 : Fin 3) * 1024 + 1 * k.val = t.val % 4 % 4 * 1024 + k.val; omega

/-- The divisor block at point `t`: row r of the block is the divisor of row `rowOf t r` of batch `batchOf t`. -/
theorem dblk_apply (c : Dev nD) (t : Fin cfg1.N) (r : Fin 1024) :
    (iblk1 V c 2 t : Vec Ideal S1x1024x1 .f32) (ix3 (0 : Fin 1) r (0 : Fin 1))
      = (V c main_v34 : S4x4096x1.Idx → EReal) (ix3 (batchOf t.val) (rowOf t.val r) (0 : Fin 1)) := by
  obtain ⟨-, -, -, -, -, -, e0, e1, e2, -⟩ := idx_facts t
  have hN : t.val < 64 := lt_of_lt_of_eq t.isLt (N_1 : cfg1.N = 64)
  unfold iblk1
  rw [View.read_apply]
  show V c main_v34 _ = V c main_v34 _
  refine congrArg _ ?_
  funext a; apply Fin.ext
  match a with
  | ⟨0, _⟩ => show win1_2.index t (0 : Fin 3) * 1 + 1 * 0 = t.val / 16 % 4; omega
  | ⟨1, _⟩ => show win1_2.index t (1 : Fin 3) * 1024 + 1 * r.val = t.val / 4 % 4 * 1024 + r.val; omega
  | ⟨2, _⟩ => show win1_2.index t (2 : Fin 3) * 1 + 1 * 0 = 0; omega

/-- The scores of a row of point `t`, and its divisor. -/
abbrev rowScores (c : Dev nD) (t : ℕ) (r : Fin 1024) : Fin 4096 → EReal :=
  scoreK (V c main_v28) (V c main_v29) (batchOf t) (rowOf t r)
abbrev rowDiv (c : Dev nD) (t : ℕ) (r : Fin 1024) : EReal :=
  (V c main_v34 : S4x4096x1.Idx → EReal) (ix3 (batchOf t) (rowOf t r) (0 : Fin 1))

/-- A weight of the tile at point `t` is the row's weight at the tile's column. -/
theorem tile_weight (c : Dev nD) (t : Fin cfg1.N) (r k : Fin 1024) :
    weightBlk (iblk1 V c 0 t) (iblk1 V c 1 t) ((iblk1 V c 2 t : Vec Ideal S1x1024x1 .f32) (ix3 (0 : Fin 1) r (0 : Fin 1))) r k
      = weightT (rowScores V c t.val r) (rowDiv V c t.val r) (col (t.val % 4) k) := by
  unfold weightBlk weightT
  rw [dblk_apply V c t r]
  have hs : scoreBlk (iblk1 V c 0 t) (iblk1 V c 1 t) r k = rowScores V c t.val r (col (t.val % 4) k) := by
    unfold scoreBlk
    show _ = scoreK (V c main_v28) (V c main_v29) (batchOf t.val) (rowOf t.val r) (col (t.val % 4) k)
    unfold scoreK
    exact Finset.sum_congr rfl fun ch _ => by rw [qblk_apply V c t r ch, kblk_apply V c t ch k]
  rw [hs]

/-- So the tile's weights in row r sum to the row's weights over tile (t mod 4), and their maximum is that tile's. -/
theorem tile_sum (c : Dev nD) (t : Fin cfg1.N) (r : Fin 1024) :
    (∑ k : Fin 1024, weightBlk (iblk1 V c 0 t) (iblk1 V c 1 t) ((iblk1 V c 2 t : Vec Ideal S1x1024x1 .f32) (ix3 (0 : Fin 1) r (0 : Fin 1))) r k)
      = tileSum (weightT (rowScores V c t.val r) (rowDiv V c t.val r)) (t.val % 4) :=
  Finset.sum_congr rfl fun k _ => tile_weight V c t r k
theorem tile_max (c : Dev nD) (t : Fin cfg1.N) (r : Fin 1024) :
    (rowMax fun k : Fin 1024 => weightBlk (iblk1 V c 0 t) (iblk1 V c 1 t) ((iblk1 V c 2 t : Vec Ideal S1x1024x1 .f32) (ix3 (0 : Fin 1) r (0 : Fin 1))) r k)
      = tileMax (weightT (rowScores V c t.val r) (rowDiv V c t.val r)) (t.val % 4) := by
  unfold tileMax rowMax
  exact congrArg (fun f => Finset.fold max negInf f (Finset.univ : Finset (Fin 1024))) (funext fun k => tile_weight V c t r k)

/-! ## What the two output blocks hold after each point -/

/-- The running sum and maximum of row r's weights after point `t`: over tiles 0 … t mod 4. -/
def sumAfter (c : Dev nD) (t : ℕ) (r : Fin 1024) : EReal :=
  accSum zero (tileSum (weightT (rowScores V c t r) (rowDiv V c t r))) (t % 4)
def maxAfter (c : Dev nD) (t : ℕ) (r : Fin 1024) : EReal :=
  accMax zero (tileMax (weightT (rowScores V c t r) (rowDiv V c t r))) (t % 4)

/-- What each case's stores hold in row r, in the form the induction uses. -/
theorem sum_store (x0 : Vec Ideal S1x1024x256 .bf16) (x1 : Vec Ideal S1x256x1024 .bf16) (x2 xs : Vec Ideal S1x1024x1 .f32) (r : Fin 1024) :
    k1_pay5 (F := Ideal) x0 x1 x2 xs (ix3 (0 : Fin 1) r (0 : Fin 1))
      = xs (ix3 (0 : Fin 1) r (0 : Fin 1)) + ∑ k : Fin 1024, weightBlk x0 x1 (x2 (ix3 (0 : Fin 1) r (0 : Fin 1))) r k :=
  pay1_5_apply x0 x1 x2 xs r
theorem max_store (x0 : Vec Ideal S1x1024x256 .bf16) (x1 : Vec Ideal S1x256x1024 .bf16) (x2 xm : Vec Ideal S1x1024x1 .f32) (r : Fin 1024) :
    k1_pay1 (F := Ideal) (k1_pay4 x0 x1 x2) (k1_pay6 xm) (ix3 (0 : Fin 1) r (0 : Fin 1))
      = max (xm (ix3 (0 : Fin 1) r (0 : Fin 1))) (rowMax fun k : Fin 1024 => weightBlk x0 x1 (x2 (ix3 (0 : Fin 1) r (0 : Fin 1))) r k) := by
  rw [pay1_1_apply, pay1_6_apply]
  exact congrArg (max _) (congrArg rowMax (funext fun k => pay1_4_apply x0 x1 x2 r k))

/-- Moving to the next point of the same block keeps the row and its divisor. -/
theorem row_next (c : Dev nD) (n : ℕ) (h0 : ¬(n + 1) % 4 = 0) (r : Fin 1024) :
    rowScores V c n r = rowScores V c (n + 1) r ∧ rowDiv V c n r = rowDiv V c (n + 1) r ∧ n % 4 = (n + 1) % 4 - 1 := by
  have eb : batchOf n = batchOf (n + 1) := Fin.ext (by show n / 16 % 4 = (n + 1) / 16 % 4; omega)
  have er : rowOf n r = rowOf (n + 1) r := Fin.ext (by show n / 4 % 4 * 1024 + r.val = (n + 1) / 4 % 4 * 1024 + r.val; omega)
  refine ⟨?_, ?_, by omega⟩
  · show scoreK _ _ (batchOf n) (rowOf n r) = scoreK _ _ (batchOf (n + 1)) (rowOf (n + 1) r); rw [eb, er]
  · show (V c main_v34 : S4x4096x1.Idx → EReal) (ix3 (batchOf n) (rowOf n r) (0 : Fin 1)) = (V c main_v34 : S4x4096x1.Idx → EReal) (ix3 (batchOf (n + 1)) (rowOf (n + 1) r) (0 : Fin 1)); rw [eb, er]

set_option maxHeartbeats 1000000 in
/-- By induction on the point: the first visit of a block starts both running values, a later one extends them. -/
theorem outsAt_eq (c : Dev nD) : ∀ (n : ℕ) (h : n < cfg1.N) (r : Fin 1024),
    (outsAt1 V c n h).1 (ix3 (0 : Fin 1) r (0 : Fin 1)) = sumAfter V c n r
    ∧ (outsAt1 V c n h).2 (ix3 (0 : Fin 1) r (0 : Fin 1)) = maxAfter V c n r := by
  intro n
  induction n with
  | zero =>
    intro h r
    rw [outsAt1_A V c ⟨0, h⟩ rfl]
    dsimp only
    refine ⟨?_, ?_⟩
    · rw [out_A3, sum_store, pay1_2_apply, tile_sum V c ⟨0, h⟩ r]
      exact accSum_first zero (tileSum (weightT (rowScores V c 0 r) (rowDiv V c 0 r))) (j := 0 % 4) rfl
    · rw [out_A4, max_store, pay1_3_apply, tile_max V c ⟨0, h⟩ r]
      exact accMax_first zero (tileMax (weightT (rowScores V c 0 r) (rowDiv V c 0 r))) (j := 0 % 4) rfl
  | succ n ih =>
    intro h r
    by_cases h0 : (n + 1) % 4 = 0
    · rw [outsAt1_A V c ⟨n + 1, h⟩ h0]
      dsimp only
      refine ⟨?_, ?_⟩
      · rw [out_A3, sum_store, pay1_2_apply, tile_sum V c ⟨n + 1, h⟩ r]
        exact accSum_first zero (tileSum (weightT (rowScores V c (n + 1) r) (rowDiv V c (n + 1) r))) h0
      · rw [out_A4, max_store, pay1_3_apply, tile_max V c ⟨n + 1, h⟩ r]
        exact accMax_first zero (tileMax (weightT (rowScores V c (n + 1) r) (rowDiv V c (n + 1) r))) h0
    · obtain ⟨es, ed, em⟩ := row_next V c n h0 r
      obtain ⟨ih3, ih4⟩ := ih (Nat.lt_of_succ_lt h) r
      rw [outsAt1_B V c ⟨n + 1, h⟩ h0]
      dsimp only
      refine ⟨?_, ?_⟩
      · rw [out_B3, sum_store, tile_sum V c ⟨n + 1, h⟩ r]
        refine accSum_next zero (tileSum (weightT (rowScores V c (n + 1) r) (rowDiv V c (n + 1) r))) h0 _ ?_
        show (outsAt1 V c n _).1 (ix3 (0 : Fin 1) r (0 : Fin 1)) = _
        rw [ih3]; unfold sumAfter; rw [es, ed, em]
      · rw [out_B4, max_store, tile_max V c ⟨n + 1, h⟩ r]
        refine accMax_next zero (tileMax (weightT (rowScores V c (n + 1) r) (rowDiv V c (n + 1) r))) h0 _ ?_
        show (outsAt1 V c n _).2 (ix3 (0 : Fin 1) r (0 : Fin 1)) = _
        rw [ih4]; unfold maxAfter; rw [es, ed, em]

/-! ## The arrays after the region -/

/-- Every row's sum of weights and largest weight, tile by tile, for the row's divisor in `Dn`: what the region leaves
    in its two output arrays [4, 4096, 1]. -/
def sumArr (A : S4x4096x256.Idx → EReal) (B : S4x256x4096.Idx → EReal) (Dn : S4x4096x1.Idx → EReal) : S4x4096x1.Idx → EReal :=
  fun i => sumT (scoreK A B ⟨(i 0).val, (i 0).isLt⟩ ⟨(i 1).val, (i 1).isLt⟩)
    (Dn (ix3 (⟨(i 0).val, (i 0).isLt⟩ : Fin 4) (⟨(i 1).val, (i 1).isLt⟩ : Fin 4096) (0 : Fin 1)))
def maxArr (A : S4x4096x256.Idx → EReal) (B : S4x256x4096.Idx → EReal) (Dn : S4x4096x1.Idx → EReal) : S4x4096x1.Idx → EReal :=
  fun i => maxT (scoreK A B ⟨(i 0).val, (i 0).isLt⟩ ⟨(i 1).val, (i 1).isLt⟩)
    (Dn (ix3 (⟨(i 0).val, (i 0).isLt⟩ : Fin 4) (⟨(i 1).val, (i 1).isLt⟩ : Fin 4096) (0 : Fin 1)))

/-- The row of the array a block entry lands on. -/
theorem land (c : Dev nD) (t : Fin cfg1.N) (y : S1x1024x1.Idx) (j0 j1 : ℕ)
    (h0 : j0 = t.val / 16) (h1 : j1 = t.val / 4 % 4 * 1024 + (y 1).val) (hb : j0 < 4) (hr : j1 < 4096) :
    (⟨j0, hb⟩ : Fin 4) = batchOf t.val ∧ (⟨j1, hr⟩ : Fin 4096) = rowOf t.val ⟨(y 1).val, (y 1).isLt⟩ := by
  have hN : t.val < 64 := lt_of_lt_of_eq t.isLt (N_1 : cfg1.N = 64)
  exact ⟨Fin.ext (by show j0 = t.val / 16 % 4; omega), Fin.ext (by show j1 = t.val / 4 % 4 * 1024 + (y 1).val; omega)⟩

/-- What a block's last visit writes back is the block of `sumArr`, respectively `maxArr`. -/
theorem flushed3_eq (c : Dev nD) (t : Fin cfg1.N) (hf : (cfg1.win 3).flush t = true) :
    (dat1 V c).flushed 3 t = ((cfg1.win 3).blk t).view.read (Elt Ideal) (sumArr (V c main_v28) (V c main_v29) (V c main_v34)) := by
  have h3 : t.val % 4 = 3 := (flush1_3 t).mp hf
  have hN : t.val < 64 := lt_of_lt_of_eq t.isLt (N_1 : cfg1.N = 64)
  obtain ⟨-, -, -, -, -, -, -, -, -, e0, e1, e2, -⟩ := idx_facts t
  show (cfg1.win 3).cut (grid1.coords t) ((dat1 V c).after 3 t) = _
  rw [after1_3]
  funext y
  rw [View.read_apply]
  show (outsAt1 V c t.val t.isLt).1 y = sumArr (V c main_v28) (V c main_v29) (V c main_v34) (((cfg1.win 3).blk t).view.emb y)
  rw [eq_col y, (outsAt_eq V c t.val t.isLt _).1]
  unfold sumAfter sumArr sumT
  rw [h3]
  obtain ⟨eb, er⟩ := land c t y (win1_3.index t (0 : Fin 3) * 1 + 1 * 0) (win1_3.index t (1 : Fin 3) * 1024 + 1 * (y 1).val)
    (by omega) (by omega) (by omega) (by have : (y 1).val < 1024 := (y 1).isLt; omega)
  show accSum zero (tileSum (weightT (scoreK _ _ (batchOf t.val) (rowOf t.val ⟨(y 1).val, (y 1).isLt⟩))
      ((V c main_v34 : S4x4096x1.Idx → EReal) (ix3 (batchOf t.val) (rowOf t.val ⟨(y 1).val, (y 1).isLt⟩) (0 : Fin 1))))) 3
    = accSum zero (tileSum (weightT (scoreK _ _ ⟨win1_3.index t (0 : Fin 3) * 1 + 1 * 0, _⟩ ⟨win1_3.index t (1 : Fin 3) * 1024 + 1 * (y 1).val, _⟩)
      ((V c main_v34 : S4x4096x1.Idx → EReal) (ix3 ⟨win1_3.index t (0 : Fin 3) * 1 + 1 * 0, _⟩ ⟨win1_3.index t (1 : Fin 3) * 1024 + 1 * (y 1).val, _⟩ (0 : Fin 1))))) 3
  rw [eb, er]

theorem flushed4_eq (c : Dev nD) (t : Fin cfg1.N) (hf : (cfg1.win 4).flush t = true) :
    (dat1 V c).flushed 4 t = ((cfg1.win 4).blk t).view.read (Elt Ideal) (maxArr (V c main_v28) (V c main_v29) (V c main_v34)) := by
  have h3 : t.val % 4 = 3 := (flush1_4 t).mp hf
  have hN : t.val < 64 := lt_of_lt_of_eq t.isLt (N_1 : cfg1.N = 64)
  obtain ⟨-, -, -, -, -, -, -, -, -, -, -, -, e0, e1, e2⟩ := idx_facts t
  show (cfg1.win 4).cut (grid1.coords t) ((dat1 V c).after 4 t) = _
  rw [after1_4]
  funext y
  rw [View.read_apply]
  show (outsAt1 V c t.val t.isLt).2 y = maxArr (V c main_v28) (V c main_v29) (V c main_v34) (((cfg1.win 4).blk t).view.emb y)
  rw [eq_col y, (outsAt_eq V c t.val t.isLt _).2]
  unfold maxAfter maxArr maxT
  rw [h3]
  obtain ⟨eb, er⟩ := land c t y (win1_4.index t (0 : Fin 3) * 1 + 1 * 0) (win1_4.index t (1 : Fin 3) * 1024 + 1 * (y 1).val)
    (by omega) (by omega) (by omega) (by have : (y 1).val < 1024 := (y 1).isLt; omega)
  show accMax zero (tileMax (weightT (scoreK _ _ (batchOf t.val) (rowOf t.val ⟨(y 1).val, (y 1).isLt⟩))
      ((V c main_v34 : S4x4096x1.Idx → EReal) (ix3 (batchOf t.val) (rowOf t.val ⟨(y 1).val, (y 1).isLt⟩) (0 : Fin 1))))) 3
    = accMax zero (tileMax (weightT (scoreK _ _ ⟨win1_4.index t (0 : Fin 3) * 1 + 1 * 0, _⟩ ⟨win1_4.index t (1 : Fin 3) * 1024 + 1 * (y 1).val, _⟩)
      ((V c main_v34 : S4x4096x1.Idx → EReal) (ix3 ⟨win1_4.index t (0 : Fin 3) * 1 + 1 * 0, _⟩ ⟨win1_4.index t (1 : Fin 3) * 1024 + 1 * (y 1).val, _⟩ (0 : Fin 1))))) 3
  rw [eb, er]

/-- Every entry of either output array is in the block of some last visit. -/
theorem cover3 (i : S4x4096x1.Idx) : ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1 := (i 2).isLt
  have hN : cfg1.N = 64 := N_1
  let t : Fin cfg1.N := ⟨(i 0).val * 16 + (i 1).val / 1024 * 4 + 3, by rw [hN]; omega⟩
  have ht : t.val = (i 0).val * 16 + (i 1).val / 1024 * 4 + 3 := rfl
  obtain ⟨-, -, -, -, -, -, -, -, -, e0, e1, e2, -⟩ := idx_facts t
  refine ⟨t, (flush1_3 t).mpr (by omega), ?_⟩
  show i ∈ ((View.whole main_v35_0).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1 ≤ (i 2).val ∧ (i 2).val < win1_3.index t (2 : Fin 3) * 1 + 1; omega
theorem cover4 (i : S4x4096x1.Idx) : ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1 := (i 2).isLt
  have hN : cfg1.N = 64 := N_1
  let t : Fin cfg1.N := ⟨(i 0).val * 16 + (i 1).val / 1024 * 4 + 3, by rw [hN]; omega⟩
  have ht : t.val = (i 0).val * 16 + (i 1).val / 1024 * 4 + 3 := rfl
  obtain ⟨-, -, -, -, -, -, -, -, -, -, -, -, e0, e1, e2⟩ := idx_facts t
  refine ⟨t, (flush1_4 t).mpr (by omega), ?_⟩
  show i ∈ ((View.whole main_v35_1).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1 ≤ (i 2).val ∧ (i 2).val < win1_4.index t (2 : Fin 3) * 1 + 1; omega

/-- The two output arrays after the region. -/
theorem final3 (c : Dev nD) : (dat1 V c).arrAt 3 cfg1.N = sumArr (V c main_v28) (V c main_v29) (V c main_v34) :=
  (dat1 V c).arrAt_eq_of_cover 3 (sumArr (V c main_v28) (V c main_v29) (V c main_v34)) (flushed3_eq V c) cover3
theorem final4 (c : Dev nD) : (dat1 V c).arrAt 4 cfg1.N = maxArr (V c main_v28) (V c main_v29) (V c main_v34) :=
  (dat1 V c).arrAt_eq_of_cover 4 (maxArr (V c main_v28) (V c main_v29) (V c main_v34)) (flushed4_eq V c) cover4

end Cert.KernelIdeal.Region1

end
-- ==== Proof.KernelHost.lean ====
/-
  The idealized kernel's host operations around its two regions, read as values.

  Before the first region the host computes the two normalised feature arrays exactly as the reference does (the same
  operations of the same arguments), then lays the queries out [batch, position, channel].  Between the regions it
  forms every row's divisor (1 - largest score) + 0.001.  After the second region it divides every row's largest weight
  by the row's sum of weights, and takes -log of the mean over the 4096 rows of each batch.  So the result is that
  last step applied to the tiled arrangement of every row of scores.
-/
import proofs.«143377_j14963666059427_1_alg».proof.Proof.Gen.KernelIdeal.Frame
import proofs.«143377_j14963666059427_1_alg».proof.Proof.Gen.ReferenceIdeal.Read
import proofs.«143377_j14963666059427_1_alg».proof.Proof.Region0Value
import proofs.«143377_j14963666059427_1_alg».proof.Proof.Region1Value
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen Cert.RowSpec Cert.KernelSpec
open Idealize.ShloMosaic Idealize.ShloMosaic.TcCoe Idealize.SL.Sem Idealize.ShloMosaic.ValueIdx Idealize.ShloMosaic.Tactic
open Idealize.ShloMosaic.StableHlo
open Idealize.ShloMosaic.Pipeline (Dat)

variable (m : (ℓ : Loc nD τ sig) → Buf (Elt Ideal) ℓ) (ρ : Dev nD → PrngReg)

/-- The normalised query and key features [4, 256, 4096] of this memory's arguments, as the reference forms them. -/
abbrev Xn (c : Dev nD) : FVec Ideal S4x256x4096 .f32 :=
  Cert.ReferenceIdeal.Read.val_main_v17 (F := Ideal) (m ((c : Thread nD τ).loc main_arg0)) (m ((c : Thread nD τ).loc main_arg1))
abbrev Yn (c : Dev nD) : FVec Ideal S4x256x4096 .f32 :=
  Cert.ReferenceIdeal.Read.val_main_v26 (F := Ideal) (m ((c : Thread nD τ).loc main_arg1))

/-! ## Before the first region -/

/-- The query operand is the normalised queries with positions and channels exchanged; the key operand the normalised keys. -/
theorem V1_v28 (c : Dev nD) : (V1 m ρ c main_v28 : FVec Ideal S4x4096x256 .bf16)
    = truncf (F := Ideal) .bf16 (transpose S4x4096x256 [0, 2, 1] (Xn m c) transposes_S4x256x4096_S4x4096x256_0_2_1) bitsLt_bf16_f32 := by
  show StableHlo.after hostOps0 (W0 m ρ c) (Proc.devRef .tc main_v28) = _
  after_results
  rfl
theorem V1_v29 (c : Dev nD) : (V1 m ρ c main_v29 : FVec Ideal S4x256x4096 .bf16)
    = truncf (F := Ideal) .bf16 (Yn m c) bitsLt_bf16_f32 := by
  show StableHlo.after hostOps0 (W0 m ρ c) (Proc.devRef .tc main_v29) = _
  after_results
  rfl

theorem q_apply (c : Dev nD) (b : Fin 4) (n : Fin 4096) (ch : Fin 256) :
    (V1 m ρ c main_v28 : S4x4096x256.Idx → EReal) (ix3 b n ch) = Xn m c (ix3 b ch n) :=
  (congrFun (V1_v28 m ρ c) (ix3 b n ch)).trans (transpose_ix3_021_apply (Xn m c) _ b n ch)
theorem k_apply (c : Dev nD) (b : Fin 4) (ch : Fin 256) (k : Fin 4096) :
    (V1 m ρ c main_v29 : S4x256x4096.Idx → EReal) (ix3 b ch k) = Yn m c (ix3 b ch k) :=
  congrFun (V1_v29 m ρ c) (ix3 b ch k)

/-- So the kernel's scores are the inner products of the normalised features. -/
theorem score_eq (c : Dev nD) (b : Fin 4) (n : Fin 4096) :
    scoreK (V1 m ρ c main_v28) (V1 m ρ c main_v29) b n = score (Xn m c) (Yn m c) b n := by
  funext k
  unfold scoreK score
  exact Finset.sum_congr rfl fun ch _ => by rw [q_apply m ρ c b n ch, k_apply m ρ c b ch k]

/-! ## Between the regions -/

/-- The first region leaves every row's largest score. -/
theorem W2_v30 (c : Dev nD) : W2 m ρ c (Proc.devRef .tc main_v30) = Region0.smaxArr (V1 m ρ c main_v28) (V1 m ρ c main_v29) :=
  (W2_arr m ρ c 2).trans (Region0.final (V1 m ρ) c)

/-- The two operands reach the second region as they reached the first. -/
theorem V3_v28 (c : Dev nD) : V3 m ρ c main_v28 = V1 m ρ c main_v28 := by
  show StableHlo.after hostOps1 (W2 m ρ c) (Proc.devRef .tc main_v28) = _
  after_results
  exact (W2_arr m ρ c 0).trans (((dat0 (V1 m ρ) c).arrAt_in 0 rfl _).trans (A_eq0 (V1 m ρ) c 0))
theorem V3_v29 (c : Dev nD) : V3 m ρ c main_v29 = V1 m ρ c main_v29 := by
  show StableHlo.after hostOps1 (W2 m ρ c) (Proc.devRef .tc main_v29) = _
  after_results
  exact (W2_arr m ρ c 1).trans (((dat0 (V1 m ρ) c).arrAt_in 1 rfl _).trans (A_eq0 (V1 m ρ) c 1))

/-- The divisors: (1 - largest score) + 0.001, row by row. -/
theorem V3_v34 (c : Dev nD) : (V3 m ρ c main_v34 : FVec Ideal S4x4096x1 .f32)
    = addf (subf (broadcastInDim S4x4096x1 ![] bcast_S_S4x4096x1 (constant (F := Ideal) S_ .f32 0x3F800000#32))
        (W2 m ρ c (Proc.devRef .tc main_v30) : FVec Ideal S4x4096x1 .f32))
      (broadcastInDim S4x4096x1 ![] bcast_S_S4x4096x1 (constant (F := Ideal) S_ .f32 0x3A83126F#32)) := by
  show StableHlo.after hostOps1 (W2 m ρ c) (Proc.devRef .tc main_v34) = _
  after_results

theorem d_apply (c : Dev nD) (b : Fin 4) (n : Fin 4096) :
    (V3 m ρ c main_v34 : S4x4096x1.Idx → EReal) (ix3 b n (0 : Fin 1)) = denomT (score (Xn m c) (Yn m c) b n) := by
  refine (congrFun (V3_v34 m ρ c) (ix3 b n (0 : Fin 1))).trans ?_
  show (broadcastInDim S4x4096x1 ![] bcast_S_S4x4096x1 (constant (F := Ideal) S_ .f32 0x3F800000#32) (ix3 b n (0 : Fin 1))
      - (W2 m ρ c (Proc.devRef .tc main_v30) : FVec Ideal S4x4096x1 .f32) (ix3 b n (0 : Fin 1)))
    + broadcastInDim S4x4096x1 ![] bcast_S_S4x4096x1 (constant (F := Ideal) S_ .f32 0x3A83126F#32) (ix3 b n (0 : Fin 1)) = _
  rw [broadcastInDim_apply _ bcast_S_S4x4096x1 (constant (F := Ideal) S_ .f32 0x3F800000#32) _ ix0 (fun a => a.elim0),
    broadcastInDim_apply _ bcast_S_S4x4096x1 (constant (F := Ideal) S_ .f32 0x3A83126F#32) _ ix0 (fun a => a.elim0),
    congrFun (W2_v30 m ρ c) (ix3 b n (0 : Fin 1))]
  show (one - smaxT (scoreK (V1 m ρ c main_v28) (V1 m ρ c main_v29) b n)) + margin = _
  rw [score_eq m ρ c b n]
  rfl

/-! ## After the second region -/

/-- The second region leaves every row's sum of weights and largest weight, for the divisors above. -/
theorem W4_sum (c : Dev nD) : W4 m ρ c (Proc.devRef .tc main_v35_0)
    = Region1.sumArr (V3 m ρ c main_v28) (V3 m ρ c main_v29) (V3 m ρ c main_v34) :=
  (W4_arr m ρ c 3).trans (Region1.final3 (V3 m ρ) c)
theorem W4_max (c : Dev nD) : W4 m ρ c (Proc.devRef .tc main_v35_1)
    = Region1.maxArr (V3 m ρ c main_v28) (V3 m ρ c main_v29) (V3 m ρ c main_v34) :=
  (W4_arr m ρ c 4).trans (Region1.final4 (V3 m ρ) c)

/-- The last step of both programs: -log of the mean over the 4096 rows of each batch. -/
def lossOf (R : FVec Ideal S4x4096 .f32) : FVec Ideal S4 .f32 :=
  Host.negf (F := Ideal) (Host.log (F := Ideal) (Host.divf (F := Ideal)
    (Host.reduceAdd (F := Ideal) R (constant (F := Ideal) S_ .f32 0x00000000#32) reducesTo_S4x4096_S4_d1 h_S_)
    (broadcastInDim S4 ![] bcast_S_S4 (constant (F := Ideal) S_ .f32 0x45800000#32))))

/-- The rows' quotients (largest weight) / (sum of weights), as the host forms them from the second region's arrays. -/
abbrev quotArr (c : Dev nD) : FVec Ideal S4x4096x1 .f32 :=
  Host.divf (F := Ideal) (φ := .f32) (s := S4x4096x1) (W4 m ρ c (Proc.devRef .tc main_v35_1)) (W4 m ρ c (Proc.devRef .tc main_v35_0))

/-- The kernel's result is the last step of the rows' quotients. -/
theorem W5_v42 (c : Dev nD) : (W5 m ρ c (Proc.devRef .tc main_v42) : FVec Ideal S4 .f32)
    = lossOf (shapeCast S4x4096 (quotArr m ρ c) shapeCasts_S4x4096x1_S4x4096) := by
  show StableHlo.after hostOps2 (W4 m ρ c) (Proc.devRef .tc main_v42) = _
  after_results
  rfl

/-- A row's quotient is the tiled arrangement of the row of scores. -/
theorem quot_apply (c : Dev nD) (b : Fin 4) (n : Fin 4096) :
    shapeCast S4x4096 (quotArr m ρ c) shapeCasts_S4x4096x1_S4x4096 (ix2 b n) = rowT (score (Xn m c) (Yn m c) b n) := by
  refine (shapeCast_apply (quotArr m ρ c) shapeCasts_S4x4096x1_S4x4096 (ix2 b n) (ix3 b n (0 : Fin 1)) (by
    rw [Shape.rowMajor_val_three, Shape.rowMajor_val_two]
    show ((b.val * 4096 + n.val) * 1 + 0) = b.val * 4096 + n.val; omega)).trans ?_
  show Ideal.div ((W4 m ρ c (Proc.devRef .tc main_v35_1) : FVec Ideal S4x4096x1 .f32) (ix3 b n (0 : Fin 1)))
      ((W4 m ρ c (Proc.devRef .tc main_v35_0) : FVec Ideal S4x4096x1 .f32) (ix3 b n (0 : Fin 1))) = _
  rw [congrFun (W4_max m ρ c) (ix3 b n (0 : Fin 1)), congrFun (W4_sum m ρ c) (ix3 b n (0 : Fin 1))]
  show Ideal.div (maxT (scoreK (V3 m ρ c main_v28) (V3 m ρ c main_v29) b n) ((V3 m ρ c main_v34 : S4x4096x1.Idx → EReal) (ix3 b n (0 : Fin 1))))
      (sumT (scoreK (V3 m ρ c main_v28) (V3 m ρ c main_v29) b n) ((V3 m ρ c main_v34 : S4x4096x1.Idx → EReal) (ix3 b n (0 : Fin 1)))) = _
  rw [d_apply m ρ c b n, V3_v28 m ρ c, V3_v29 m ρ c, score_eq m ρ c b n]
  rfl

/-- The rows' values [4, 4096] in the tiled arrangement. -/
def rowsT (X Y : FVec Ideal S4x256x4096 .f32) : FVec Ideal S4x4096 .f32 :=
  fun i => rowT (score X Y ⟨(i 0).val, (i 0).isLt⟩ ⟨(i 1).val, (i 1).isLt⟩)

/-- THE KERNEL'S RESULT: the last step applied to the tiled arrangement of every row. -/
theorem result (c : Dev nD) : (W5 m ρ c (Proc.devRef .tc main_v42) : FVec Ideal S4 .f32) = lossOf (rowsT (Xn m c) (Yn m c)) := by
  rw [W5_v42 m ρ c]
  refine congrArg lossOf (funext fun i => ?_)
  rw [eq_ix2 i]
  exact quot_apply m ρ c (i 0) (i 1)

end Cert.KernelIdeal.HostValue

end
-- ==== Proof.lean ====
/-
  The contextual-similarity loss of two feature arrays [4, 256, 64, 64], computed by a tiled kernel and by a plain
  reference, is the same extended real in every batch.

  Both programs centre the features by the key features' spatial mean and normalise them over the channels, with the
  same operations; the scores of a batch are the 4096 × 4096 inner products of the normalised queries and keys.  For a
  row of scores s the value is max_m (w_m / Σ w) with w_m = exp((1 - (1 - s_m) / (d_min + 0.001)) / h), d_min the
  smallest distance 1 - s_m; the loss of a batch is -log of the mean of its 4096 row values.

  The kernel walks the columns in four tiles of 1024 in two passes: the running maximum of the scores (so
  d_min = 1 - max s), then the running sum and running maximum of the weights, the weights formed with the factor 1/h
  (the constant the kernel carries in place of the reference's quotient by h names exactly that rational), and one
  quotient per row at the end.  The reference takes the minimum of the distances, divides by h, normalises every weight
  and takes the maximum.  Row by row the two arrangements agree on all extended reals (RowLaws), and the last step is
  the same operations on both sides.

  The modules: RowSpec (the two arrangements of a row), RowLaws (they agree), RefRows (the reference's rows are the
  plain arrangement), TilePayloads (what the kernel bodies compute on a tile), Region0Value and Region1Value (what each
  region leaves in its output arrays), KernelHost (the host operations around the regions), KernelRun (the kernel's
  run with its result kept).
-/
import proofs.«143377_j14963666059427_1_alg».proof.Defs
import proofs.«143377_j14963666059427_1_alg».proof.Proof.Gen.Kernel
import proofs.«143377_j14963666059427_1_alg».proof.Proof.Gen.Kernel.Skeleton
import proofs.«143377_j14963666059427_1_alg».proof.Proof.Gen.Kernel.Launch
import proofs.«143377_j14963666059427_1_alg».proof.Proof.Gen.Kernel.Points
import proofs.«143377_j14963666059427_1_alg».proof.Proof.Gen.Kernel.Frame
import proofs.«143377_j14963666059427_1_alg».proof.Proof.Gen.KernelIdeal
import proofs.«143377_j14963666059427_1_alg».proof.Proof.Gen.KernelIdeal.Skeleton
import proofs.«143377_j14963666059427_1_alg».proof.Proof.Gen.KernelIdeal.Launch
import proofs.«143377_j14963666059427_1_alg».proof.Proof.Gen.KernelIdeal.Points
import proofs.«143377_j14963666059427_1_alg».proof.Proof.Gen.KernelIdeal.Frame
import proofs.«143377_j14963666059427_1_alg».proof.Proof.Gen.ReferenceIdeal
import proofs.«143377_j14963666059427_1_alg».proof.Proof.Gen.Pre_finite_inputs
import proofs.«143377_j14963666059427_1_alg».proof.Proof.Gen.ReferenceIdeal.Run
import proofs.«143377_j14963666059427_1_alg».proof.Proof.Gen.ReferenceIdeal.Read
import proofs.«143377_j14963666059427_1_alg».proof.Proof.RowSpec
import proofs.«143377_j14963666059427_1_alg».proof.Proof.RowLaws
import proofs.«143377_j14963666059427_1_alg».proof.Proof.RefRows
import proofs.«143377_j14963666059427_1_alg».proof.Proof.KernelRun
import proofs.«143377_j14963666059427_1_alg».proof.Proof.KernelHost
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.HostValue (lossOf rowsT)

/-- The reference's result is the last step applied to the plain arrangement of every row, which is the tiled one. -/
theorem reference_result (x0 x1 : (⟨Cert.ReferenceIdeal.S4x256x64x64, .f32⟩ : BufTy).Contents (Elt Ideal)) :
    Cert.ReferenceIdeal.Read.val_main_v50 (F := Ideal) x0 x1
      = lossOf (rowsT (Cert.ReferenceIdeal.Read.val_main_v17 (F := Ideal) x0 x1) (Cert.ReferenceIdeal.Read.val_main_v26 (F := Ideal) x1)) := by
  have h : Cert.ReferenceIdeal.Read.val_main_v50 (F := Ideal) x0 x1 = lossOf (Cert.ReferenceIdeal.Read.val_main_v45 (F := Ideal) x0 x1) := rfl
  rw [h]
  refine congrArg lossOf (funext fun i => ?_)
  rw [eq_ix2 i]
  exact (Cert.RefRows.rows x0 x1 (i 0) (i 1)).trans (Cert.RowLaws.row_eq _).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's factor 10.0 names 134217728/13421773, the reciprocal of the
    reference's bandwidth word. -/
theorem preserves : Cert.preserves_Kernel_KernelIdeal :=
  IdealRules.named_const.statement Cert.KernelIdeal.κ "inv_bandwidth" .f32 0x41200000#32 ((134217728 / 13421773 : ℝ) : EReal) rfl

/-- From memories agreeing on the two arguments both programs end at the same loss in every batch. -/
theorem algebraic : Cert.algebraic_KernelIdeal_ReferenceIdeal := by
  intro m ρ m' ρ' _ hagree
  refine ⟨fun c => lossOf (rowsT (Cert.KernelIdeal.HostValue.Xn m c) (Cert.KernelIdeal.HostValue.Yn m c)), ?_, ?_⟩
  · exact (θ_run Cert.KernelIdeal.defs _ _).mono
      (fun _ h c => ⟨(h c).1.trans (Cert.KernelIdeal.HostValue.result m ρ c), (h c).2.1, (h c).2.2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2]
    exact reference_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
